-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x128 : Shape := ⟨2, ![1, 128]⟩
abbrev S50001x128 : Shape := ⟨2, ![50001, 128]⟩
abbrev S175x128 : Shape := ⟨2, ![175, 128]⟩
abbrev S50176x128 : Shape := ⟨2, ![50176, 128]⟩
abbrev S128x384 : Shape := ⟨2, ![128, 384]⟩
abbrev S384 : Shape := ⟨1, ![384]⟩
abbrev S1x384 : Shape := ⟨2, ![1, 384]⟩
abbrev S50176x384 : Shape := ⟨2, ![50176, 384]⟩
abbrev S512x128 : Shape := ⟨2, ![512, 128]⟩
abbrev S512x384 : Shape := ⟨2, ![512, 384]⟩
abbrev S50001x384 : Shape := ⟨2, ![50001, 384]⟩
abbrev S50001x8x16 : Shape := ⟨3, ![50001, 8, 16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x8x16 : Shape := ⟨3, ![850000, 8, 16]⟩
abbrev S850000x8x1 : Shape := ⟨3, ![850000, 8, 1]⟩
abbrev S500x8x16 : Shape := ⟨3, ![500, 8, 16]⟩
abbrev S500x8x1 : Shape := ⟨3, ![500, 8, 1]⟩
abbrev S500x8 : Shape := ⟨2, ![500, 8]⟩
abbrev S50001x8x1 : Shape := ⟨3, ![50001, 8, 1]⟩

abbrev nBuf : Space → Nat
  | .hbm => 87
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S1x128, .f32⟩
  | .hbm, ⟨10, _⟩ => ⟨S50001x128, .f32⟩
  | .hbm, ⟨11, _⟩ => ⟨S_, .f32⟩
  | .hbm, ⟨12, _⟩ => ⟨S175x128, .f32⟩
  | .hbm, ⟨13, _⟩ => ⟨S50176x128, .f32⟩
  | .hbm, ⟨14, _⟩ => ⟨S128x384, .f32⟩
  | .hbm, ⟨15, _⟩ => ⟨S384, .f32⟩
  | .hbm, ⟨16, _⟩ => ⟨S1x384, .f32⟩
  | .hbm, ⟨17, _⟩ => ⟨S50176x384, .f32⟩
  | .hbm, ⟨18, _⟩ => ⟨S50001x384, .f32⟩
  | .hbm, ⟨19, _⟩ => ⟨S50001x128, .f32⟩
  | .hbm, ⟨20, _⟩ => ⟨S50001x8x16, .f32⟩
  | .hbm, ⟨21, _⟩ => ⟨S50001x128, .f32⟩
  | .hbm, ⟨22, _⟩ => ⟨S50001x8x16, .f32⟩
  | .hbm, ⟨23, _⟩ => ⟨S50001x128, .f32⟩
  | .hbm, ⟨24, _⟩ => ⟨S50001x8x16, .f32⟩
  | .hbm, ⟨25, _⟩ => ⟨S_, .i32⟩
  | .hbm, ⟨26, _⟩ => ⟨S50000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S850000, .i32⟩
  | .hbm, ⟨33, _⟩ => ⟨S50000, .i32⟩
  | .hbm, ⟨34, _⟩ => ⟨S_, .i32⟩
  | .hbm, ⟨35, _⟩ => ⟨S50000, .i32⟩
  | .hbm, ⟨36, _⟩ => ⟨S50000, .i32⟩
  | .hbm, ⟨37, _⟩ => ⟨S1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S850000, .i32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x8x16, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x8x16, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x8x16, .f32⟩
  | .hbm, ⟨70, _⟩ => ⟨S850000x8x16, .f32⟩
  | .hbm, ⟨71, _⟩ => ⟨S850000x8x1, .f32⟩
  | .hbm, ⟨72, _⟩ => ⟨S_, .f32⟩
  | .hbm, ⟨73, _⟩ => ⟨S50001x8x16, .f32⟩
  | .hbm, ⟨74, _⟩ => ⟨S850000x1, .i32⟩
  | .hbm, ⟨75, _⟩ => ⟨S50001x8x16, .f32⟩
  | .hbm, ⟨76, _⟩ => ⟨S_, .f32⟩
  | .hbm, ⟨77, _⟩ => ⟨S50001x8x1, .f32⟩
  | .hbm, ⟨78, _⟩ => ⟨S850000x1, .i32⟩
  | .hbm, ⟨79, _⟩ => ⟨S50001x8x1, .f32⟩
  | .hbm, ⟨80, _⟩ => ⟨S_, .f32⟩
  | .hbm, ⟨81, _⟩ => ⟨S50001x8x1, .f32⟩
  | .hbm, ⟨82, _⟩ => ⟨S50001x8x1, .f32⟩
  | .hbm, ⟨83, _⟩ => ⟨S50001x8x16, .f32⟩
  | .hbm, ⟨84, _⟩ => ⟨S50001x8x16, .f32⟩
  | .hbm, ⟨85, _⟩ => ⟨S50001x128, .f32⟩
  | .hbm, ⟨86, _⟩ => ⟨S50000x128, .f32⟩
  | .local _ .vmem, ⟨0, _⟩ => ⟨S512x128, .f32⟩
  | .local _ .vmem, ⟨1, _⟩ => ⟨S512x128, .f32⟩
  | .local _ .vmem, ⟨2, _⟩ => ⟨S128x384, .f32⟩
  | .local _ .vmem, ⟨3, _⟩ => ⟨S1x384, .f32⟩
  | .local _ .vmem, ⟨4, _⟩ => ⟨S512x384, .f32⟩
  | .local _ .vmem, ⟨5, _⟩ => ⟨S512x384, .f32⟩
  | .local _ .vmem, ⟨6, _⟩ => ⟨S500x8x16, .f32⟩
  | .local _ .vmem, ⟨7, _⟩ => ⟨S500x8x16, .f32⟩
  | .local _ .vmem, ⟨8, _⟩ => ⟨S500x8x16, .f32⟩
  | .local _ .vmem, ⟨9, _⟩ => ⟨S500x8x16, .f32⟩
  | .local _ .vmem, ⟨10, _⟩ => ⟨S500x8x16, .f32⟩
  | .local _ .vmem, ⟨11, _⟩ => ⟨S500x8x16, .f32⟩
  | .local _ .vmem, ⟨12, _⟩ => ⟨S500x8x16, .f32⟩
  | .local _ .vmem, ⟨13, _⟩ => ⟨S500x8x16, .f32⟩
  | .local _ .vmem, ⟨14, _⟩ => ⟨S500x8x1, .f32⟩
  | .local _ .vmem, ⟨15, _⟩ => ⟨S500x8x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1700], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S500x8x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S500x8x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S500x8x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S500x8x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S500x8x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1x128 : S_.BroadcastsInDim S1x128 (![] : Fin 0 → Fin S1x128.rank)
  concatenates_S1x128_S50000x128_S50001x128_d0 : Shape.Concatenates [S1x128, S50000x128] S50001x128 0
  bcast_S_S175x128 : S_.BroadcastsInDim S175x128 (![] : Fin 0 → Fin S175x128.rank)
  concatenates_S50001x128_S175x128_S50176x128_d0 : Shape.Concatenates [S50001x128, S175x128] S50176x128 0
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S512x384_S512x384_0_0 : ∀ a, (![0, 0] : Fin 2 → Nat) a + S512x384.size a ≤ S512x384.size a
  h_S512x384 : 0 < S512x384.numel
  slices_S50176x384_S50001x384_0_0 : S50176x384.Slices ![0, 0] S50001x384
  slices_S50001x384_S50001x128_0_0 : S50001x384.Slices ![0, 0] S50001x128
  shapeCasts_S50001x128_S50001x8x16 : S50001x128.ShapeCasts S50001x8x16
  slices_S50001x384_S50001x128_0_128 : S50001x384.Slices ![0, 128] S50001x128
  slices_S50001x384_S50001x128_0_256 : S50001x384.Slices ![0, 256] S50001x128
  bcast_S_S50000 : S_.BroadcastsInDim S50000 (![] : Fin 0 → Fin S50000.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  concatenates_S50000_S800000_S850000_d0 : Shape.Concatenates [S50000, S800000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  inb_S500x8x16_S500x8x16_0_0_0 : ∀ a, (![0, 0, 0] : Fin 3 → Nat) a + S500x8x16.size a ≤ S500x8x16.size a
  h_S500x8x16 : 0 < S500x8x16.numel
  shapeCasts_S500x8x16_S500x8x16 : S500x8x16.ShapeCasts S500x8x16
  reduces_S500x8x16_S500x8 : S500x8x16.Reduces [2] S500x8
  shapeCasts_S500x8_S500x8x1 : S500x8.ShapeCasts S500x8x1
  broadcasts_S500x8x1_S500x8x16 : S500x8x1.Broadcasts S500x8x16
  inb_S500x8x1_S500x8x1_0_0_0 : ∀ a, (![0, 0, 0] : Fin 3 → Nat) a + S500x8x1.size a ≤ S500x8x1.size a
  h_S500x8x1 : 0 < S500x8x1.numel
  bcast_S_S50001x8x16 : S_.BroadcastsInDim S50001x8x16 (![] : Fin 0 → Fin S50001x8x16.rank)
  bcast_S_S50001x8x1 : S_.BroadcastsInDim S50001x8x1 (![] : Fin 0 → Fin S50001x8x1.rank)
  bcast_S50001x8x1_S50001x8x16_0_1_2 : S50001x8x1.BroadcastsInDim S50001x8x16 (![0, 1, 2] : Fin 3 → Fin S50001x8x16.rank)
  shapeCasts_S50001x8x16_S50001x128 : S50001x8x16.ShapeCasts S50001x128
  slices_S50001x128_S50000x128_1_0 : S50001x128.Slices ![1, 0] S50000x128
  dot_S512x128_S128x384_S512x384_1_0_0_1_n_n_wf : DotDims.WF S512x128 S128x384 S512x384 [1] [0] [0] [1] [] []
  gather_S50001x8x16_S850000x1_S850000x8x16_12_0_n_n_0_1_1816_wf : GatherDims.WF S50001x8x16 S850000x1 S850000x8x16 [1, 2] [0] [] [0] [] 1 ![1, 8, 16]
  scatter_S50001x8x16_S850000x1_S850000x8x16_12_0_0_1_wf : ScatterDims.WF S50001x8x16 S850000x1 S850000x8x16 [1, 2] [0] [0] 1
  scatter_S50001x8x1_S850000x1_S850000x8x1_12_0_0_1_wf : ScatterDims.WF S50001x8x1 S850000x1 S850000x8x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S50176x128.size a
  hwx0_0 : ∀ i : grid0.Coords, EltTy.bits .f32 = 32 ∨ (Rect.block (s := S50176x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S50176x384.size a
  hwx0_3 : ∀ i : grid0.Coords, EltTy.bits .f32 = 32 ∨ (Rect.block (s := S50176x384) S512x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S500x8x16.size a ≤ S850000x8x16.size a
  hwx1_0 : ∀ i : grid1.Coords, EltTy.bits .f32 = 32 ∨ (Rect.block (s := S850000x8x16) S500x8x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S500x8x16.size a ≤ S850000x8x16.size a
  hwx1_1 : ∀ i : grid1.Coords, EltTy.bits .f32 = 32 ∨ (Rect.block (s := S850000x8x16) S500x8x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S500x8x16.size a ≤ S850000x8x16.size a
  hwx1_2 : ∀ i : grid1.Coords, EltTy.bits .f32 = 32 ∨ (Rect.block (s := S850000x8x16) S500x8x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S500x8x16.size a ≤ S850000x8x16.size a
  hwx1_3 : ∀ i : grid1.Coords, EltTy.bits .f32 = 32 ∨ (Rect.block (s := S850000x8x16) S500x8x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S500x8x1.size a ≤ S850000x8x1.size a
  hwx1_4 : ∀ i : grid1.Coords, EltTy.bits .f32 = 32 ∨ (Rect.block (s := S850000x8x1) S500x8x1.size (cc1_transform_4 i) (hinb1_4 i)).WholeWords (EltTy.packing .f32)

variable [Facts₀]

def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def gather_S50001x8x16_S850000x1_S850000x8x16_12_0_n_n_0_1_1816 : GatherDims S50001x8x16 S850000x1 S850000x8x16 where
  offsetDims := [1, 2]
  collapsedSliceDims := [0]
  operandBatchingDims := []
  startIndicesBatchingDims := []
  startIndexMap := [0]
  indexVectorDim := 1
  sliceSizes := ![1, 8, 16]
  wf := gather_S50001x8x16_S850000x1_S850000x8x16_12_0_n_n_0_1_1816_wf
def scatter_S50001x8x16_S850000x1_S850000x8x16_12_0_0_1 : ScatterDims S50001x8x16 S850000x1 S850000x8x16 where
  updateWindowDims := [1, 2]
  insertedWindowDims := [0]
  scatterDimsToOperandDims := [0]
  indexVectorDim := 1
  wf := scatter_S50001x8x16_S850000x1_S850000x8x16_12_0_0_1_wf
def scatter_S50001x8x1_S850000x1_S850000x8x1_12_0_0_1 : ScatterDims S50001x8x1 S850000x1 S850000x8x1 where
  updateWindowDims := [1, 2]
  insertedWindowDims := [0]
  scatterDimsToOperandDims := [0]
  indexVectorDim := 1
  wf := scatter_S50001x8x1_S850000x1_S850000x8x1_12_0_0_1_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S500x8x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S500x8x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S500x8x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50_0) S500x8x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50_1) S500x8x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x128 : Shape := ⟨2, ![1, 128]⟩
abbrev S50001x128 : Shape := ⟨2, ![50001, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50001x8x16 : Shape := ⟨3, ![50001, 8, 16]⟩
abbrev S850000x1 : Shape := ⟨2, ![850000, 1]⟩
abbrev S850000x8x16 : Shape := ⟨3, ![850000, 8, 16]⟩
abbrev S850000x8 : Shape := ⟨2, ![850000, 8]⟩
abbrev S850000x8x1 : Shape := ⟨3, ![850000, 8, 1]⟩
abbrev S50001x8x1 : Shape := ⟨3, ![50001, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S1x128, .f32⟩
  | .hbm, ⟨10, _⟩ => ⟨S50001x128, .f32⟩
  | .hbm, ⟨11, _⟩ => ⟨S_, .i32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S850000, .i32⟩
  | .hbm, ⟨19, _⟩ => ⟨S50000, .i32⟩
  | .hbm, ⟨20, _⟩ => ⟨S_, .i32⟩
  | .hbm, ⟨21, _⟩ => ⟨S50000, .i32⟩
  | .hbm, ⟨22, _⟩ => ⟨S50000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S850000, .i32⟩
  | .hbm, ⟨29, _⟩ => ⟨S50001x128, .f32⟩
  | .hbm, ⟨30, _⟩ => ⟨S1x128, .f32⟩
  | .hbm, ⟨31, _⟩ => ⟨S50001x128, .f32⟩
  | .hbm, ⟨32, _⟩ => ⟨S50001x128, .f32⟩
  | .hbm, ⟨33, _⟩ => ⟨S50001x8x16, .f32⟩
  | .hbm, ⟨34, _⟩ => ⟨S50001x128, .f32⟩
  | .hbm, ⟨35, _⟩ => ⟨S1x128, .f32⟩
  | .hbm, ⟨36, _⟩ => ⟨S50001x128, .f32⟩
  | .hbm, ⟨37, _⟩ => ⟨S50001x128, .f32⟩
  | .hbm, ⟨38, _⟩ => ⟨S50001x8x16, .f32⟩
  | .hbm, ⟨39, _⟩ => ⟨S50001x128, .f32⟩
  | .hbm, ⟨40, _⟩ => ⟨S1x128, .f32⟩
  | .hbm, ⟨41, _⟩ => ⟨S50001x128, .f32⟩
  | .hbm, ⟨42, _⟩ => ⟨S50001x128, .f32⟩
  | .hbm, ⟨43, _⟩ => ⟨S50001x8x16, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x8x16, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x8x16, .f32⟩
  | .hbm, ⟨62, _⟩ => ⟨S850000x8x16, .f32⟩
  | .hbm, ⟨63, _⟩ => ⟨S_, .f32⟩
  | .hbm, ⟨64, _⟩ => ⟨S850000x8, .f32⟩
  | .hbm, ⟨65, _⟩ => ⟨S850000x8x1, .f32⟩
  | .hbm, ⟨66, _⟩ => ⟨S_, .f32⟩
  | .hbm, ⟨67, _⟩ => ⟨S850000x8x1, .f32⟩
  | .hbm, ⟨68, _⟩ => ⟨S850000x8x1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S850000x8x1, .f32⟩
  | .hbm, ⟨73, _⟩ => ⟨S850000x8x1, .f32⟩
  | .hbm, ⟨74, _⟩ => ⟨S_, .f32⟩
  | .hbm, ⟨75, _⟩ => ⟨S850000x8x1, .f32⟩
  | .hbm, ⟨76, _⟩ => ⟨S850000x8x1, .f32⟩
  | .hbm, ⟨77, _⟩ => ⟨S850000x8x1, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x8x16, .f32⟩
  | .hbm, ⟨87, _⟩ => ⟨S850000x8x16, .f32⟩
  | .hbm, ⟨88, _⟩ => ⟨S850000x8x16, .f32⟩
  | .hbm, ⟨89, _⟩ => ⟨S_, .f32⟩
  | .hbm, ⟨90, _⟩ => ⟨S50001x8x16, .f32⟩
  | .hbm, ⟨91, _⟩ => ⟨S850000x1, .i32⟩
  | .hbm, ⟨92, _⟩ => ⟨S50001x8x16, .f32⟩
  | .hbm, ⟨93, _⟩ => ⟨S_, .f32⟩
  | .hbm, ⟨94, _⟩ => ⟨S50001x8x1, .f32⟩
  | .hbm, ⟨95, _⟩ => ⟨S850000x1, .i32⟩
  | .hbm, ⟨96, _⟩ => ⟨S50001x8x1, .f32⟩
  | .hbm, ⟨97, _⟩ => ⟨S_, .f32⟩
  | .hbm, ⟨98, _⟩ => ⟨S50001x8x1, .f32⟩
  | .hbm, ⟨99, _⟩ => ⟨S50001x8x1, .f32⟩
  | .hbm, ⟨100, _⟩ => ⟨S50001x8x16, .f32⟩
  | .hbm, ⟨101, _⟩ => ⟨S50001x8x16, .f32⟩
  | .hbm, ⟨102, _⟩ => ⟨S50001x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_cst_10 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S1x128_S50000x128_S50001x128_d0 : Shape.Concatenates [S1x128, S50000x128] S50001x128 0
  bcast_S_S50000 : S_.BroadcastsInDim S50000 (![] : Fin 0 → Fin S50000.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  concatenates_S50000_S800000_S850000_d0 : Shape.Concatenates [S50000, S800000] S850000 0
  slices_S2x800000_S1x800000_1_0 : S2x800000.Slices ![1, 0] S1x800000
  bcast_S128_S1x128_1 : S128.BroadcastsInDim S1x128 (![1] : Fin 1 → Fin S1x128.rank)
  bcast_S1x128_S50001x128_0_1 : S1x128.BroadcastsInDim S50001x128 (![0, 1] : Fin 2 → Fin S50001x128.rank)
  shapeCasts_S50001x128_S50001x8x16 : S50001x128.ShapeCasts S50001x8x16
  bcast_S_S850000 : S_.BroadcastsInDim S850000 (![] : Fin 0 → Fin S850000.rank)
  bcast_S850000_S850000x1_0 : S850000.BroadcastsInDim S850000x1 (![0] : Fin 1 → Fin S850000x1.rank)
  reducesTo_S850000x8x16_S850000x8_d2 : S850000x8x16.ReducesTo [2] S850000x8
  h_S_ : 0 < S_.numel
  bcast_S850000x8_S850000x8x1_0_1 : S850000x8.BroadcastsInDim S850000x8x1 (![0, 1] : Fin 2 → Fin S850000x8x1.rank)
  bcast_S_S850000x8x1 : S_.BroadcastsInDim S850000x8x1 (![] : Fin 0 → Fin S850000x8x1.rank)
  bcast_S850000x8x1_S850000x8x16_0_1_2 : S850000x8x1.BroadcastsInDim S850000x8x16 (![0, 1, 2] : Fin 3 → Fin S850000x8x16.rank)
  bcast_S_S50001x8x16 : S_.BroadcastsInDim S50001x8x16 (![] : Fin 0 → Fin S50001x8x16.rank)
  bcast_S_S50001x8x1 : S_.BroadcastsInDim S50001x8x1 (![] : Fin 0 → Fin S50001x8x1.rank)
  bcast_S50001x8x1_S50001x8x16_0_1_2 : S50001x8x1.BroadcastsInDim S50001x8x16 (![0, 1, 2] : Fin 3 → Fin S50001x8x16.rank)
  shapeCasts_S50001x8x16_S50001x128 : S50001x8x16.ShapeCasts S50001x128
  slices_S50001x128_S50000x128_1_0 : S50001x128.Slices ![1, 0] S50000x128
  dot_S50001x128_S128x128_S50001x128_1_0_0_1_n_n_wf : DotDims.WF S50001x128 S128x128 S50001x128 [1] [0] [0] [1] [] []
  gather_S50001x8x16_S850000x1_S850000x8x16_12_0_n_n_0_1_1816_wf : GatherDims.WF S50001x8x16 S850000x1 S850000x8x16 [1, 2] [0] [] [0] [] 1 ![1, 8, 16]
  scatter_S50001x8x16_S850000x1_S850000x8x16_12_0_0_1_wf : ScatterDims.WF S50001x8x16 S850000x1 S850000x8x16 [1, 2] [0] [0] 1
  scatter_S50001x8x1_S850000x1_S850000x8x1_12_0_0_1_wf : ScatterDims.WF S50001x8x1 S850000x1 S850000x8x1 [1, 2] [0] [0] 1

variable [Facts₀]

def dot_S50001x128_S128x128_S50001x128_1_0_0_1_n_n : DotDims S50001x128 S128x128 S50001x128 where
  lhsContracting := [1]
  rhsContracting := [0]
  lhsNonContracting := [0]
  rhsNonContracting := [1]
  lhsBatch := []
  rhsBatch := []
  wf := dot_S50001x128_S128x128_S50001x128_1_0_0_1_n_n_wf
def gather_S50001x8x16_S850000x1_S850000x8x16_12_0_n_n_0_1_1816 : GatherDims S50001x8x16 S850000x1 S850000x8x16 where
  offsetDims := [1, 2]
  collapsedSliceDims := [0]
  operandBatchingDims := []
  startIndicesBatchingDims := []
  startIndexMap := [0]
  indexVectorDim := 1
  sliceSizes := ![1, 8, 16]
  wf := gather_S50001x8x16_S850000x1_S850000x8x16_12_0_n_n_0_1_1816_wf
def scatter_S50001x8x16_S850000x1_S850000x8x16_12_0_0_1 : ScatterDims S50001x8x16 S850000x1 S850000x8x16 where
  updateWindowDims := [1, 2]
  insertedWindowDims := [0]
  scatterDimsToOperandDims := [0]
  indexVectorDim := 1
  wf := scatter_S50001x8x16_S850000x1_S850000x8x16_12_0_0_1_wf
def scatter_S50001x8x1_S850000x1_S850000x8x1_12_0_0_1 : ScatterDims S50001x8x1 S850000x1 S850000x8x1 where
  updateWindowDims := [1, 2]
  insertedWindowDims := [0]
  scatterDimsToOperandDims := [0]
  indexVectorDim := 1
  wf := scatter_S50001x8x1_S850000x1_S850000x8x1_12_0_0_1_wf

class Facts : Prop extends Facts₀ where

variable [Facts]
-- ==== Proof.KB.Body0.lean ====
/-
  The projection kernel's half of the frame: one grid point takes a 512-row block of the padded node matrix, the whole
  fused weight and the fused bias row, and writes the 512 × 384 block of the fused projection. Stated at any contents
  `V` the region may be entered with: what each window's block is, what the body leaves in the output block as a
  function of the three input blocks, and that the body, run on the staging buffers, does exactly that at every point.
-/
import proofs.«146397_j38843684225059_2_alg».proof.Proof.Gen.Kernel.Launch
import proofs.«146397_j38843684225059_2_alg».proof.Proof.Gen.Kernel.Skeleton
import proofs.«146397_j38843684225059_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev rX0 : Rect S512x128 := Rect.unit (s := S512x128) ![0, 0] S512x128.size inb_S512x128_S512x128_0_0
abbrev rW0 : Rect S128x384 := Rect.unit (s := S128x384) ![0, 0] S128x384.size inb_S128x384_S128x384_0_0
abbrev rB0 : Rect S1x384 := Rect.unit (s := S1x384) ![0, 0] S1x384.size inb_S1x384_S1x384_0_0
abbrev rO0 : Rect S512x384 := Rect.unit (s := S512x384) ![0, 0] S512x384.size inb_S512x384_S512x384_0_0

/-- The output block after the body: its one store, of the matrix product of the row block with the weight plus the bias. -/
def out0_3 (x0 : Vec F S512x128 .f32) (x1 : Vec F S128x384 .f32) (x2 : Vec F S1x384 .f32) : Vec F S512x384 .f32 :=
  View.canon [⟨rO0, k0_pay1 (View.ld x0 rX0) (View.ld x1 rW0) (View.ld x2 rB0)⟩]

/-- The one store covers the output block. -/
theorem cover0_3 (p0 : Vec F S512x384 .f32) (y : S512x384.Idx) :
    ∃ pc ∈ ([⟨rO0, p0⟩] : List (View.Piece (Elt F) S512x384 .f32)), y ∈ pc.1.set :=
  View.cover_of_tiled [⟨rO0, p0⟩] S512x384.size (by rfl) y

/-! ## The body's triple -/

set_option maxHeartbeats 1000000 in
/-- On whole staging buffers holding the three input blocks the body runs to its end, leaves the inputs as they were and
    the output buffer at `out0_3` of them. -/
theorem sound_kernel0 (c : Dev nD) (E : Set ℕ) (i : grid0.Coords) (arg1 : Memref sig .tc .vmem S512x128 .f32) (harg1 : arg1.IsWhole)
    (arg2 : Memref sig .tc .vmem S128x384 .f32) (harg2 : arg2.IsWhole) (arg3 : Memref sig .tc .vmem S1x384 .f32) (harg3 : arg3.IsWhole)
    (arg4 : Memref sig .tc .vmem S512x384 .f32) (harg4 : arg4.IsWhole)
    (x0 : Vec F S512x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection's pipeline on core `c`: the arrays as the region finds them; after the body at
    point `t` each input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  The edge kernel's half of the frame: one grid point takes the 500-edge blocks of the gathered keys, queries and values
  and writes the block of messages and the block of scores. Stated at any contents `V` the region may be entered with.
-/
import proofs.«146397_j38843684225059_2_alg».proof.Proof.Gen.Kernel.Launch
import proofs.«146397_j38843684225059_2_alg».proof.Proof.Gen.Kernel.Skeleton
import proofs.«146397_j38843684225059_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes the whole buffer -/

abbrev rE1 : Rect S500x8x16 := Rect.unit (s := S500x8x16) ![0, 0, 0] S500x8x16.size inb_S500x8x16_S500x8x16_0_0_0
abbrev rS1 : Rect S500x8x1 := Rect.unit (s := S500x8x1) ![0, 0, 0] S500x8x1.size inb_S500x8x1_S500x8x1_0_0_0

/-- The message block after the body: its one store, value times score. -/
def out1_3 (x0 x1 x2 : Vec F S500x8x16 .f32) : Vec F S500x8x16 .f32 :=
  View.canon [⟨rE1, k1_pay2 (View.ld x0 rE1) (View.ld x1 rE1) (View.ld x2 rE1)⟩]
/-- The score block after the body: its one store. -/
def out1_4 (x0 x1 : Vec F S500x8x16 .f32) : Vec F S500x8x1 .f32 :=
  View.canon [⟨rS1, k1_pay1 (View.ld x0 rE1) (View.ld x1 rE1)⟩]

theorem cover1_3 (p0 : Vec F S500x8x16 .f32) (y : S500x8x16.Idx) :
    ∃ pc ∈ ([⟨rE1, p0⟩] : List (View.Piece (Elt F) S500x8x16 .f32)), y ∈ pc.1.set :=
  View.cover_of_tiled [⟨rE1, p0⟩] S500x8x16.size (by rfl) y
theorem cover1_4 (p0 : Vec F S500x8x1 .f32) (y : S500x8x1.Idx) :
    ∃ pc ∈ ([⟨rS1, p0⟩] : List (View.Piece (Elt F) S500x8x1 .f32)), y ∈ pc.1.set :=
  View.cover_of_tiled [⟨rS1, p0⟩] S500x8x1.size (by rfl) y

/-! ## The body's triple -/

set_option maxHeartbeats 1000000 in
/-- On whole staging buffers holding the three input blocks the body runs to its end, leaves the inputs as they were and
    the two output buffers at `out1_3` and `out1_4` of them. -/
theorem sound_kernel1 (c : Dev nD) (E : Set ℕ) (i : grid1.Coords) (arg1 : Memref sig .tc .vmem S500x8x16 .f32) (harg1 : arg1.IsWhole)
    (arg2 : Memref sig .tc .vmem S500x8x16 .f32) (harg2 : arg2.IsWhole) (arg3 : Memref sig .tc .vmem S500x8x16 .f32) (harg3 : arg3.IsWhole)
    (arg4 : Memref sig .tc .vmem S500x8x16 .f32) (harg4 : arg4.IsWhole) (arg5 : Memref sig .tc .vmem S500x8x1 .f32) (harg5 : arg5.IsWhole)
    (x0 x1 x2 : Vec F S500x8x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1)) -∗ K ⟨⟩))
      ⊢ wp frame (wpE (defs₀ (F := F)) Variants.none c none) E (cc1__score_msg_kernel i arg1 harg1 arg2 harg2 arg3 harg3 arg4 harg4 arg5 harg5) K := by
  simp only [cc1__score_msg_kernel_eq_skeleton]; unfold cc1__score_msg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the edge kernel's pipeline on core `c`: the arrays as the region finds them; after the body at
    point `t` each input's buffer at its block and each output's at its function of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The program's run from the launch to the return: three stretches of host operations around the projection kernel and the
  edge kernel. The buffers' contents at each boundary are a fold from the launch memory: a host stretch applies its
  operations; a kernel region leaves its arrays at what its write-backs leave and every other buffer as entered. Every
  weakly fair execution terminates with every buffer at the last boundary's contents; the arguments, which no stretch
  and no region writes, end as launched.
-/
import proofs.«146397_j38843684225059_2_alg».proof.Proof.Gen.Kernel.Launch
import proofs.«146397_j38843684225059_2_alg».proof.Proof.Gen.Kernel.Skeleton
import proofs.«146397_j38843684225059_2_alg».proof.Proof.Gen.Kernel.Points
import proofs.«146397_j38843684225059_2_alg».proof.Proof.Gen.Kernel.Regions
import proofs.«146397_j38843684225059_2_alg».proof.Proof.KB.Body0
import proofs.«146397_j38843684225059_2_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the projection kernel's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection kernel's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the edge kernel's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the edge kernel's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ### The arguments end as launched: no host operation writes one and no kernel window stands on one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues, none. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's launch lemmas are stated over the pinned configuration: unifying with it unfolds plain definitions
set_option backward.isDefEq.respectTransparency.types false in
/-- Region 0 over the thread state: entered from every unscoped buffer at `W1`, left at `W2`. Its arrays are split
    out of the unscoped buffers and put back at the exit contents; the generator register goes into the kernel class's
    invariant and comes back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's launch lemmas are stated over the pinned configuration: unifying with it unfolds plain definitions
set_option backward.isDefEq.respectTransparency.types false in
/-- Region 1 over the thread state: entered from every unscoped buffer at `W3`, left at `W4`. Its arrays are split
    out of the unscoped buffers and put back at the exit contents; the generator register goes into the kernel class's
    invariant and comes back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]

-- the launch theorem's implicit arguments are found by unifying its conclusion with this one
set_option backward.isDefEq.respectTransparency.types false in
/-- THE RUN: from any memory with zero counters every weakly fair execution of @main terminates, nothing faulting, and
    every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdatsH m) () cellOf_inj emb₁ defs₀ 𝒱H LH lvH m ρ main
    (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => StableHlo.held (c : Thread nD τ) (Pipeline.ucRefs τ sig) (W5 m c))
    (hch := fun c => ⟨.rfl, .rfl, .rfl, .rfl, .rfl, sep_mono .rfl (by iintro ⟨-, H⟩; iexact H)⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any float instance: the run, read at the eight arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucH main_arg0 (by decide))).trans (W5_main_arg0 m c),
     (h c _ (mem_ucH main_arg1 (by decide))).trans (W5_main_arg1 m c),
     (h c _ (mem_ucH main_arg2 (by decide))).trans (W5_main_arg2 m c),
     (h c _ (mem_ucH main_arg3 (by decide))).trans (W5_main_arg3 m c),
     (h c _ (mem_ucH main_arg4 (by decide))).trans (W5_main_arg4 m c),
     (h c _ (mem_ucH main_arg5 (by decide))).trans (W5_main_arg5 m c),
     (h c _ (mem_ucH main_arg6 (by decide))).trans (W5_main_arg6 m c),
     (h c _ (mem_ucH main_arg7 (by decide))).trans (W5_main_arg7 m c)⟩)
    (run_all m ρ)

end Cert.Kernel.Hand

end
-- ==== Proof.KI.Body0.lean ====
/-
  The projection kernel's half of the frame: one grid point takes a 512-row block of the padded node matrix, the whole
  fused weight and the fused bias row, and writes the 512 × 384 block of the fused projection. Stated at any contents
  `V` the region may be entered with: what each window's block is, what the body leaves in the output block as a
  function of the three input blocks, and that the body, run on the staging buffers, does exactly that at every point.
-/
import proofs.«146397_j38843684225059_2_alg».proof.Proof.Gen.KernelIdeal.Launch
import proofs.«146397_j38843684225059_2_alg».proof.Proof.Gen.KernelIdeal.Skeleton
import proofs.«146397_j38843684225059_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole buffer -/

abbrev rX0 : Rect S512x128 := Rect.unit (s := S512x128) ![0, 0] S512x128.size inb_S512x128_S512x128_0_0
abbrev rW0 : Rect S128x384 := Rect.unit (s := S128x384) ![0, 0] S128x384.size inb_S128x384_S128x384_0_0
abbrev rB0 : Rect S1x384 := Rect.unit (s := S1x384) ![0, 0] S1x384.size inb_S1x384_S1x384_0_0
abbrev rO0 : Rect S512x384 := Rect.unit (s := S512x384) ![0, 0] S512x384.size inb_S512x384_S512x384_0_0

/-- The output block after the body: its one store, of the matrix product of the row block with the weight plus the bias. -/
def out0_3 (x0 : Vec F S512x128 .f32) (x1 : Vec F S128x384 .f32) (x2 : Vec F S1x384 .f32) : Vec F S512x384 .f32 :=
  View.canon [⟨rO0, k0_pay1 (View.ld x0 rX0) (View.ld x1 rW0) (View.ld x2 rB0)⟩]

/-- The one store covers the output block. -/
theorem cover0_3 (p0 : Vec F S512x384 .f32) (y : S512x384.Idx) :
    ∃ pc ∈ ([⟨rO0, p0⟩] : List (View.Piece (Elt F) S512x384 .f32)), y ∈ pc.1.set :=
  View.cover_of_tiled [⟨rO0, p0⟩] S512x384.size (by rfl) y

/-! ## The body's triple -/

set_option maxHeartbeats 1000000 in
/-- On whole staging buffers holding the three input blocks the body runs to its end, leaves the inputs as they were and
    the output buffer at `out0_3` of them. -/
theorem sound_kernel0 (c : Dev nD) (E : Set ℕ) (i : grid0.Coords) (arg1 : Memref sig .tc .vmem S512x128 .f32) (harg1 : arg1.IsWhole)
    (arg2 : Memref sig .tc .vmem S128x384 .f32) (harg2 : arg2.IsWhole) (arg3 : Memref sig .tc .vmem S1x384 .f32) (harg3 : arg3.IsWhole)
    (arg4 : Memref sig .tc .vmem S512x384 .f32) (harg4 : arg4.IsWhole)
    (x0 : Vec F S512x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the projection's pipeline on core `c`: the arrays as the region finds them; after the body at
    point `t` each input's buffer at its block and the output's at `out0_3` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The edge kernel's half of the frame: one grid point takes the 500-edge blocks of the gathered keys, queries and values
  and writes the block of messages and the block of scores. Stated at any contents `V` the region may be entered with.
-/
import proofs.«146397_j38843684225059_2_alg».proof.Proof.Gen.KernelIdeal.Launch
import proofs.«146397_j38843684225059_2_alg».proof.Proof.Gen.KernelIdeal.Skeleton
import proofs.«146397_j38843684225059_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes the whole buffer -/

abbrev rE1 : Rect S500x8x16 := Rect.unit (s := S500x8x16) ![0, 0, 0] S500x8x16.size inb_S500x8x16_S500x8x16_0_0_0
abbrev rS1 : Rect S500x8x1 := Rect.unit (s := S500x8x1) ![0, 0, 0] S500x8x1.size inb_S500x8x1_S500x8x1_0_0_0

/-- The message block after the body: its one store, value times score. -/
def out1_3 (x0 x1 x2 : Vec F S500x8x16 .f32) : Vec F S500x8x16 .f32 :=
  View.canon [⟨rE1, k1_pay2 (View.ld x0 rE1) (View.ld x1 rE1) (View.ld x2 rE1)⟩]
/-- The score block after the body: its one store. -/
def out1_4 (x0 x1 : Vec F S500x8x16 .f32) : Vec F S500x8x1 .f32 :=
  View.canon [⟨rS1, k1_pay1 (View.ld x0 rE1) (View.ld x1 rE1)⟩]

theorem cover1_3 (p0 : Vec F S500x8x16 .f32) (y : S500x8x16.Idx) :
    ∃ pc ∈ ([⟨rE1, p0⟩] : List (View.Piece (Elt F) S500x8x16 .f32)), y ∈ pc.1.set :=
  View.cover_of_tiled [⟨rE1, p0⟩] S500x8x16.size (by rfl) y
theorem cover1_4 (p0 : Vec F S500x8x1 .f32) (y : S500x8x1.Idx) :
    ∃ pc ∈ ([⟨rS1, p0⟩] : List (View.Piece (Elt F) S500x8x1 .f32)), y ∈ pc.1.set :=
  View.cover_of_tiled [⟨rS1, p0⟩] S500x8x1.size (by rfl) y

/-! ## The body's triple -/

set_option maxHeartbeats 1000000 in
/-- On whole staging buffers holding the three input blocks the body runs to its end, leaves the inputs as they were and
    the two output buffers at `out1_3` and `out1_4` of them. -/
theorem sound_kernel1 (c : Dev nD) (E : Set ℕ) (i : grid1.Coords) (arg1 : Memref sig .tc .vmem S500x8x16 .f32) (harg1 : arg1.IsWhole)
    (arg2 : Memref sig .tc .vmem S500x8x16 .f32) (harg2 : arg2.IsWhole) (arg3 : Memref sig .tc .vmem S500x8x16 .f32) (harg3 : arg3.IsWhole)
    (arg4 : Memref sig .tc .vmem S500x8x16 .f32) (harg4 : arg4.IsWhole) (arg5 : Memref sig .tc .vmem S500x8x1 .f32) (harg5 : arg5.IsWhole)
    (x0 x1 x2 : Vec F S500x8x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1)) -∗ K ⟨⟩))
      ⊢ wp frame (wpE (defs₀ (F := F)) Variants.none c none) E (cc1__score_msg_kernel i arg1 harg1 arg2 harg2 arg3 harg3 arg4 harg4 arg5 harg5) K := by
  simp only [cc1__score_msg_kernel_eq_skeleton]; unfold cc1__score_msg_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of the edge kernel's pipeline on core `c`: the arrays as the region finds them; after the body at
    point `t` each input's buffer at its block and each output's at its function of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) :
    (dat1 V c).after 4 t = out1_4 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The program's run from the launch to the return: three stretches of host operations around the projection kernel and the
  edge kernel. The buffers' contents at each boundary are a fold from the launch memory: a host stretch applies its
  operations; a kernel region leaves its arrays at what its write-backs leave and every other buffer as entered. Every
  weakly fair execution terminates with every buffer at the last boundary's contents; the arguments, which no stretch
  and no region writes, end as launched.
-/
import proofs.«146397_j38843684225059_2_alg».proof.Proof.Gen.KernelIdeal.Launch
import proofs.«146397_j38843684225059_2_alg».proof.Proof.Gen.KernelIdeal.Skeleton
import proofs.«146397_j38843684225059_2_alg».proof.Proof.Gen.KernelIdeal.Points
import proofs.«146397_j38843684225059_2_alg».proof.Proof.Gen.KernelIdeal.Regions
import proofs.«146397_j38843684225059_2_alg».proof.Proof.KI.Body0
import proofs.«146397_j38843684225059_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the projection kernel's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection kernel's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the edge kernel's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the edge kernel's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the last host stretch: the contents at the return. -/
abbrev W5 : Dev nD → Valuation τ sig (Elt F) := fun c => StableHlo.after hostOps2 (W4 m c)

/-! ### The arguments end as launched: no host operation writes one and no kernel window stands on one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

/-! ## The proof data family and the thread state -/

/-- Every pipeline's proof data, each at its region's entry contents. -/
def pdatsH : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues, none. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's launch lemmas are stated over the pinned configuration: unifying with it unfolds plain definitions
set_option backward.isDefEq.respectTransparency.types false in
/-- Region 0 over the thread state: entered from every unscoped buffer at `W1`, left at `W2`. Its arrays are split
    out of the unscoped buffers and put back at the exit contents; the generator register goes into the kernel class's
    invariant and comes back; nothing is owed; the kernel has no semaphore of its own. -/
def reg0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's launch lemmas are stated over the pinned configuration: unifying with it unfolds plain definitions
set_option backward.isDefEq.respectTransparency.types false in
/-- Region 1 over the thread state: entered from every unscoped buffer at `W3`, left at `W4`. Its arrays are split
    out of the unscoped buffers and put back at the exit contents; the generator register goes into the kernel class's
    invariant and comes back; nothing is owed; the kernel has no semaphore of its own. -/
def reg1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (U3 m c) (U4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segsH : List (Pipeline.Seg (pcfgs (F := F)) adm (pdatsH m) () defs₀ 𝒱H LH lvH) :=
  [ .host (hsegH hostOps0 hostOps0_sub hostOps0_fresh (W0 m)),
    .region (reg0 m),
    .host (hsegH hostOps1 hostOps1_sub hostOps1_fresh (W2 m)),
    .region (reg1 m),
    .host (hsegH hostOps2 hostOps2_sub hostOps2_fresh (W4 m)) ]

-- the launch theorem's implicit arguments are found by unifying its conclusion with this one
set_option backward.isDefEq.respectTransparency.types false in
/-- THE RUN: from any memory with zero counters every weakly fair execution of @main terminates, nothing faulting, and
    every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m c b) := by
  refine Pipeline.θ_run_regions_kit_dev (pcfgs (F := F)) adm (pdatsH m) () cellOf_inj emb₁ defs₀ 𝒱H LH lvH m ρ main
    (fun _ => segsH m)
    (fun c Q => by
      rewrite [main_chain c, Pipeline.Seg.run_eq_chain,
        show (segsH m).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => StableHlo.held (c : Thread nD τ) (Pipeline.ucRefs τ sig) (W5 m c))
    (hch := fun c => ⟨.rfl, .rfl, .rfl, .rfl, .rfl, sep_mono .rfl (by iintro ⟨-, H⟩; iexact H)⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any float instance: the run, read at the eight arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucH main_arg0 (by decide))).trans (W5_main_arg0 m c),
     (h c _ (mem_ucH main_arg1 (by decide))).trans (W5_main_arg1 m c),
     (h c _ (mem_ucH main_arg2 (by decide))).trans (W5_main_arg2 m c),
     (h c _ (mem_ucH main_arg3 (by decide))).trans (W5_main_arg3 m c),
     (h c _ (mem_ucH main_arg4 (by decide))).trans (W5_main_arg4 m c),
     (h c _ (mem_ucH main_arg5 (by decide))).trans (W5_main_arg5 m c),
     (h c _ (mem_ucH main_arg6 (by decide))).trans (W5_main_arg6 m c),
     (h c _ (mem_ucH main_arg7 (by decide))).trans (W5_main_arg7 m c)⟩)
    (run_all m ρ)

end Cert.KernelIdeal.Hand

end
-- ==== Proof.Spec.lean ====
/-
  The mathematics of one sparse graph-attention layer, stated once over extended reals and shared by both programs.

  A node's feature row is projected by three linear maps (query, key, value) and the 128 output features are read as
  8 heads of 16 lanes. For every edge and head the score is the exponential of the dot product of the source's key
  and the destination's query over the 16 lanes, scaled by one quarter and clipped to [-5, 5]; the message is the
  source's value times that score. Everything after that (summing messages and scores per destination node and
  dividing) is the same operation on both sides and is never opened.
-/
import Idealize.ShloMosaic.PureOps.Ideal
import Idealize.ShloMosaic.Lib.ValueIdx

noncomputable section

open scoped BigOperators

namespace Cert.Attn

open Idealize.ShloMosaic Idealize.ShloMosaic.ValueIdx

/-- One output feature of a linear layer: the dot product of a 128-feature row with a weight column, plus the bias. -/
def projAt (x w : Fin 128 → EReal) (b : EReal) : EReal := (∑ k : Fin 128, x k * w k) + b

/-- The score of one edge and head from the key's and the query's 16 lanes: exp (clip (⟨k, q⟩ · ¼, -5, 5)). The three
    constants are kept as the float words of 5, -5 and ¼. -/
def scoreRow (k q : Fin 16 → EReal) : EReal :=
  Ideal.exp (min (Ideal.ofBits .f32 0x40A00000#32) (max (Ideal.ofBits .f32 0xC0A00000#32)
    ((∑ d : Fin 16, k d * q d) * Ideal.ofBits .f32 0x3E800000#32)))

/-- Lane `d` of head `h` is feature `16 h + d`. -/
def col (h : Fin 8) (d : Fin 16) : Fin 128 := ⟨16 * h.val + d.val, by omega⟩

/-- The scores of `n` edges, one per edge and head, from the gathered keys and queries. -/
def scoreArr {n : Nat} (k q : (⟨3, ![n, 8, 16]⟩ : Shape).Idx → EReal) (i : (⟨3, ![n, 8, 1]⟩ : Shape).Idx) : EReal :=
  scoreRow (fun d => k (ix3 (n0 := n) (n1 := 8) ⟨(i 0).val, (i 0).isLt⟩ ⟨(i 1).val, (i 1).isLt⟩ d))
    (fun d => q (ix3 (n0 := n) (n1 := 8) ⟨(i 0).val, (i 0).isLt⟩ ⟨(i 1).val, (i 1).isLt⟩ d))

/-- The messages of `n` edges: the gathered value times the edge's score for that head. -/
def msgArr {n : Nat} (k q v : (⟨3, ![n, 8, 16]⟩ : Shape).Idx → EReal) (i : (⟨3, ![n, 8, 16]⟩ : Shape).Idx) : EReal :=
  v i * scoreRow (fun d => k (ix3 (n0 := n) (n1 := 8) ⟨(i 0).val, (i 0).isLt⟩ ⟨(i 1).val, (i 1).isLt⟩ d))
    (fun d => q (ix3 (n0 := n) (n1 := 8) ⟨(i 0).val, (i 0).isLt⟩ ⟨(i 1).val, (i 1).isLt⟩ d))

/-- The fused projection of the padded node matrix: entry (row, feature) is the row's dot product with the fused weight's
    column plus the fused bias, for all 3 · 128 output features at once. -/
def qkvArr (x : (⟨2, ![50176, 128]⟩ : Shape).Idx → EReal) (w : (⟨2, ![128, 384]⟩ : Shape).Idx → EReal)
    (b : (⟨2, ![1, 384]⟩ : Shape).Idx → EReal) (i : (⟨2, ![50176, 384]⟩ : Shape).Idx) : EReal :=
  (∑ k : Fin 128, x (ix2 (n0 := 50176) ⟨(i 0).val, (i 0).isLt⟩ k) * w (ix2 k (⟨(i 1).val, (i 1).isLt⟩ : Fin 384)))
    + b (ix2 (0 : Fin 1) (⟨(i 1).val, (i 1).isLt⟩ : Fin 384))

/-- A projected node matrix read as heads: entry (node, head, lane) is feature `16 head + lane` of the node's row through
    the linear layer `(w, b)`. -/
def headsArr (x : (⟨2, ![50001, 128]⟩ : Shape).Idx → EReal) (w : (⟨2, ![128, 128]⟩ : Shape).Idx → EReal)
    (b : (⟨1, ![128]⟩ : Shape).Idx → EReal) (i : (⟨3, ![50001, 8, 16]⟩ : Shape).Idx) : EReal :=
  projAt (fun k => x (ix2 (n0 := 50001) ⟨(i 0).val, (i 0).isLt⟩ k))
    (fun k => w (ix2 k (col ⟨(i 1).val, (i 1).isLt⟩ ⟨(i 2).val, (i 2).isLt⟩)))
    (b (ix1 (col ⟨(i 1).val, (i 1).isLt⟩ ⟨(i 2).val, (i 2).isLt⟩)))

end Cert.Attn

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.PayQkv.lean ====
/-
  The projection kernel's block arithmetic read at an index.

  One grid step of the fused projection takes a [512, 128] block of node rows, the [128, 384] fused weight and the
  [1, 384] fused bias. Both operands pass through a narrowing format change, which on extended reals is the identity;
  the product is accumulated into the zero array, so at (r, j) it is the sum over k of x(r, k) · w(k, j); the bias row is
  repeated over the 512 rows, so at (r, j) it contributes b(0, j).
-/
import proofs.«146397_j38843684225059_2_alg».proof.Proof.Gen.KernelIdeal.Skeleton
import proofs.«146397_j38843684225059_2_alg».proof.Proof.Spec
import proofs.«146397_j38843684225059_2_alg».proof.Proof.LibPlainMatmul
import proofs.«146397_j38843684225059_2_alg».proof.Proof.LibRowBroadcast

noncomputable section

open scoped BigOperators

namespace Cert.Attn.Ker

open Cert.KernelIdeal Cert.KernelIdeal.Gen Cert.Attn Idealize.ShloMosaic Idealize.ShloMosaic.ValueIdx

/-- The projection kernel's dimension numbers are those of an ordinary matrix product: rows times contraction by
    contraction times columns, no batch axis. -/
theorem dot_plain : dot_S512x128_S128x384_S512x384_1_0_0_1_n_n = DotDims.plain 512 128 384 := rfl

/-- The projection block at (r, j): the row's dot product with the weight's column j, plus the bias of column j. -/
theorem pay_qkv (x0 : Vec Ideal S512x128 .f32) (x3 : Vec Ideal S128x384 .f32) (x7 : Vec Ideal S1x384 .f32) (r : Fin 512) (j : Fin 384) :
    k0_pay1 (F := Ideal) x0 x3 x7 (ix2 r j) = (∑ k : Fin 128, x0 (ix2 r k) * x3 (ix2 k j)) + x7 (ix2 (0 : Fin 1) j) := by
  unfold k0_pay1
  -- the casts to the same shape are the identity
  simp only [shapeCast_self]
  rw [addf_apply]
  refine congrArg₂ (· + ·) ?_ ?_
  · -- the product into the zero accumulator; the narrowed operands read the same extended reals
    exact matmul_plain_zero_apply 512 128 384 none (truncf .bf16 x0 bitsLt_bf16_f32) (truncf .bf16 x3 bitsLt_bf16_f32) r j
  · -- the bias row repeated over the rows
    exact Cert.LibRowBroadcast.broadcastTo_1b_ab_apply x7 broadcasts_S1x384_S512x384 r j 0

end Cert.Attn.Ker

end
-- ==== Proof.KI.Blocks0.lean ====
/-
  From the projection's blocks to its array.

  The projection runs over 98 grid points. Point `t` takes rows `512 t … 512 t + 511` of the padded node matrix, the whole
  fused weight and the whole fused bias row, and writes back rows `512 t … 512 t + 511` of the output. Element (r, j) of
  that block is the dot product of the node row `512 t + r` with the weight's column `j` plus the bias of column `j`: the
  fused projection's own element at (512 t + r, j). So what every point writes back is its block of ONE function of the
  three arrays the region is entered with, and since row `r` of the output lies in the block of point `r / 512`, the
  blocks cover the output and the array ends holding that function.
-/
import proofs.«146397_j38843684225059_2_alg».proof.Proof.KI.Body0
import proofs.«146397_j38843684225059_2_alg».proof.Proof.PayQkv
import proofs.«146397_j38843684225059_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.Attn.Ker Idealize.ShloMosaic.ValueIdx

-- the TensorCore's buffer contents when the region is entered
variable (V : (c : Dev nD) → (b : Ref sig .tc) → Buf (Elt Ideal) ((c : Thread nD τ).loc b))

/-- The zero offsets of a whole-buffer access, as the constant function. -/
theorem zeroOffsets : (![0, 0] : Fin 2 → Nat) = fun _ => 0 :=
  funext fun a => match a with | ⟨0, _⟩ => rfl | ⟨1, _⟩ => rfl

/-- The printed index maps, decided over the grid: at point `t` the node rows' block and the output's block are block
    `t` of their arrays along the rows; the weight's and the bias's block is the whole array at every point. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the node rows' block at point `t` is row `512 t + r` of the padded node matrix. -/
theorem rows_block_apply (c : Dev nD) (t : Fin cfg0.N) (r : Fin 512) (k : Fin 128) (R : Fin 50176)
    (hR : R.val = t.val * 512 + r.val) :
    (iblk0 V c 0 t : S512x128.Idx → EReal) (ix2 r k) = (V c main_v3 : S50176x128.Idx → EReal) (ix2 R k) := by
  obtain ⟨e0, e1, -⟩ := blockIndex0 t
  unfold iblk0
  rw [View.read_apply]
  show (V c main_v3 : S50176x128.Idx → EReal) _ = V c main_v3 _
  congr 1
  funext a
  apply Fin.ext
  match a with
  | ⟨0, _⟩ => show win0_0.index t (0 : Fin 2) * 512 + 1 * r.val = R.val; rw [e0, hR]; omega
  | ⟨1, _⟩ => show win0_0.index t (1 : Fin 2) * 128 + 1 * k.val = k.val; rw [e1]; omega

/-- The weight's block at any point is the whole fused weight. -/
theorem weight_block_apply (c : Dev nD) (t : Fin cfg0.N) (k : Fin 128) (q : Fin 384) :
    (iblk0 V c 1 t : S128x384.Idx → EReal) (ix2 k q) = (V c main_v4 : S128x384.Idx → EReal) (ix2 k q) := by
  obtain ⟨-, -, e0, e1, -⟩ := blockIndex0 t
  unfold iblk0
  rw [View.read_apply]
  show (V c main_v4 : S128x384.Idx → EReal) _ = V c main_v4 _
  congr 1
  funext a
  apply Fin.ext
  match a with
  | ⟨0, _⟩ => show win0_1.index t (0 : Fin 2) * 128 + 1 * k.val = k.val; rw [e0]; omega
  | ⟨1, _⟩ => show win0_1.index t (1 : Fin 2) * 384 + 1 * q.val = q.val; rw [e1]; omega

/-- The bias's block at any point is the whole fused bias row. -/
theorem bias_block_apply (c : Dev nD) (t : Fin cfg0.N) (q : Fin 384) :
    (iblk0 V c 2 t : S1x384.Idx → EReal) (ix2 (0 : Fin 1) q) = (V c main_v6 : S1x384.Idx → EReal) (ix2 (0 : Fin 1) q) := by
  obtain ⟨-, -, -, -, e0, e1, -⟩ := blockIndex0 t
  unfold iblk0
  rw [View.read_apply]
  show (V c main_v6 : S1x384.Idx → EReal) _ = V c main_v6 _
  congr 1
  funext a
  apply Fin.ext
  match a with
  | ⟨0, _⟩ => show win0_2.index t (0 : Fin 2) * 1 + 1 * 0 = 0; rw [e0]
  | ⟨1, _⟩ => show win0_2.index t (1 : Fin 2) * 384 + 1 * q.val = q.val; rw [e1]; omega

/-- The body's payload at an index of the output block, with the index's coordinates spelt as the specification spells them. -/
theorem pay_at (x0 : Vec Ideal S512x128 .f32) (x1 : Vec Ideal S128x384 .f32) (x2 : Vec Ideal S1x384 .f32) (y : S512x384.Idx) :
    k0_pay1 (F := Ideal) x0 x1 x2 y
      = (∑ k : Fin 128, x0 (ix2 (⟨(y 0).val, (y 0).isLt⟩ : Fin 512) k) * x1 (ix2 k (⟨(y 1).val, (y 1).isLt⟩ : Fin 384)))
        + x2 (ix2 (0 : Fin 1) (⟨(y 1).val, (y 1).isLt⟩ : Fin 384)) := by
  obtain ⟨r, q, rfl⟩ : ∃ (r : Fin 512) (q : Fin 384), y = ix2 r q := ⟨y 0, y 1, eq_ix2 y⟩
  exact pay_qkv x0 x1 x2 r q

/-- WHAT POINT `t` WRITES BACK is block `t` of the fused projection of the arrays as the region finds them. -/
theorem flushed0_3_eq (c : Dev nD) (t : Fin cfg0.N) :
    (dat0 (F := Ideal) V c).flushed 3 t = ((cfg0.win 3).blk t).view.read (Elt Ideal)
      (qkvArr (V c main_v3) (V c main_v4) (V c main_v6)) := by
  show (cfg0.win 3).cut (grid0.coords t) ((dat0 V c).after 3 t) = _
  rw [after0_3]
  unfold out0_3
  rw [View.canon_unit_zero zeroOffsets]
  simp only [View.ld_unit_zero (S := S512x128) zeroOffsets, View.ld_unit_zero (S := S128x384) zeroOffsets,
    View.ld_unit_zero (S := S1x384) zeroOffsets]
  obtain ⟨-, -, -, -, -, -, e0, e1⟩ := blockIndex0 t
  funext j
  have hj0 : (j 0).val < 512 := (j 0).isLt
  have hj1 : (j 1).val < 384 := (j 1).isLt
  have ht : t.val < grid0.N := t.isLt
  have hN : grid0.N = 98 := N_0
  refine (pay_at _ _ _ _).trans ?_
  rw [View.read_apply]
  show _ = qkvArr (V c main_v3) (V c main_v4) (V c main_v6) (((cfg0.win 3).blk t).view.emb j)
  unfold qkvArr
  refine congrArg₂ (· + ·) (Finset.sum_congr rfl fun k _ => congrArg₂ (· * ·) ?_ ?_) ?_
  · refine rows_block_apply V c t _ k _ ?_
    show win0_3.index t (0 : Fin 2) * 512 + 1 * (j 0).val = t.val * 512 + (j 0).val
    rw [e0]; omega
  · refine (weight_block_apply V c t k _).trans ?_
    congr 1
    funext a
    match a with
    | ⟨0, _⟩ => rfl
    | ⟨1, _⟩ => exact Fin.ext (by show (j 1).val = win0_3.index t (1 : Fin 2) * 384 + 1 * (j 1).val; rw [e1]; omega)
  · refine (bias_block_apply V c t _).trans ?_
    congr 1
    funext a
    match a with
    | ⟨0, _⟩ => rfl
    | ⟨1, _⟩ => exact Fin.ext (by show (j 1).val = win0_3.index t (1 : Fin 2) * 384 + 1 * (j 1).val; rw [e1]; omega)

/-- An index of the output array is in point `t`'s block iff each coordinate is in the block's range on its axis. -/
theorem mem_block0_3 (t : Fin cfg0.N) (i : S50176x384.Idx) :
    i ∈ ((cfg0.win 3).blk t).view.set ↔ ∀ a : Fin 2, win0_3.index t a * S512x384.size a ≤ (i a).val
      ∧ (i a).val < win0_3.index t a * S512x384.size a + S512x384.size a := by
  show i ∈ ((View.whole main_v7).slice (win0_3.rect t)).set ↔ _
  rw [View.set_slice_whole, Rect.mem_set_unit]
  exact Iff.rfl

/-- Every index of the output array is in some point's block: row `r` is in the block of point `r / 512`. -/
theorem covered0_3 (i : S50176x384.Idx) :
    ∃ t : Fin cfg0.N, (cfg0.win 3).flush t = true ∧ i ∈ ((cfg0.win 3).blk t).view.set := by
  have hi0 : (i 0).val < 50176 := (i 0).isLt
  have hi1 : (i 1).val < 384 := (i 1).isLt
  have hN : grid0.N = 98 := N_0
  have hlt : (i 0).val / 512 < grid0.N := by rw [hN]; omega
  obtain ⟨-, -, -, -, -, -, e0, e1⟩ := blockIndex0 ⟨(i 0).val / 512, hlt⟩
  refine ⟨⟨(i 0).val / 512, hlt⟩, flush0_3 _, ?_⟩
  rw [mem_block0_3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, hlt⟩ (1 : Fin 2) * 384 ≤ (i 1).val
      ∧ (i 1).val < win0_3.index ⟨(i 0).val / 512, hlt⟩ (1 : Fin 2) * 384 + 384
    rw [e1]
    omega

/-- THE ARRAY after the run of the projection's grid: the fused projection of the padded node matrix, the fused weight
    and the fused bias as the region finds them. -/
theorem final0_3 (c : Dev nD) :
    (dat0 (F := Ideal) V c).arrAt 3 cfg0.N = qkvArr (V c main_v3) (V c main_v4) (V c main_v6) :=
  (dat0 (F := Ideal) V c).arrAt_eq_of_cover 3 (qkvArr (V c main_v3) (V c main_v4) (V c main_v6))
    (fun t _ => flushed0_3_eq V c t) covered0_3

end Cert.KernelIdeal.Hand

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibTrailingUnit.lean ====
/-
  A trailing unit axis: the cast [a, b] → [a, b, 1] and the broadcast [a, b, 1] → [a, b, c], read at an index.

  The cast keeps every entry at its row-major position, and the position of (p, q, 0) in [a, b, 1] is that of (p, q) in
  [a, b]. The broadcast copies the one entry of the last axis to every coordinate of the new axis, so at (p, q, e) it
  reads (p, q, 0). Together: a matrix spread along a new last axis, out[p, q, e] = x[p, q].
-/
import Idealize.ShloMosaic.Lib.ValueLayout
import Idealize.ShloMosaic.Lib.Pipeline.Value
import Idealize.ShloMosaic.Lib.ValueIdx

noncomputable section

namespace Cert.LibTrailingUnit

open Idealize.ShloMosaic Idealize.ShloMosaic.ValueIdx

variable {α : Type}

/-- A matrix [a, b] cast to [a, b, 1] reads, at (p, q, u), the matrix at (p, q). -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An array [a, b, 1] broadcast to [a, b, c] reads, at (p, q, e), the array at (p, q, u). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) (u : Fin 1) :
    broadcastTo ⟨3, ![a, b, c]⟩ v h (ix3 p q e) = v (ix3 p q u) := by
  refine broadcastTo_apply v h (ix3 p q e) (ix3 p q u) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show u.val = if (1 : ℕ) = 1 then 0 else e.val
    rw [if_pos rfl]; omega

/-- A matrix spread along a new last axis: out[p, q, e] = x[p, q]. -/
theorem spread_last_apply {a b c : ℕ} (x : (⟨2, ![a, b]⟩ : Shape).Idx → α) (hc : (⟨2, ![a, b]⟩ : Shape).ShapeCasts ⟨3, ![a, b, 1]⟩)
    (hb : (⟨3, ![a, b, 1]⟩ : Shape).Broadcasts ⟨3, ![a, b, c]⟩) (p : Fin a) (q : Fin b) (e : Fin c) :
    broadcastTo ⟨3, ![a, b, c]⟩ (shapeCast ⟨3, ![a, b, 1]⟩ x hc) hb (ix3 p q e) = x (ix2 p q) :=
  (broadcastTo_ab1_abc_apply _ hb p q e (0 : Fin 1)).trans (shapeCast_ab_ab1_apply x hc p q (0 : Fin 1))

end Cert.LibTrailingUnit

end
-- ==== Proof.PayEdges.lean ====
/-
  The edge kernel's block arithmetic read at an index.

  One grid step takes the gathered keys, queries and values of 500 edges, each an [8, 16] array of heads by lanes. The
  score of edge e and head h is the exponential of the lane sum Σ_d k(e, h, d) · q(e, h, d), scaled by one quarter and
  clipped to [-5, 5]; the sum is taken over the last axis into the zero word and the [500, 8] result is viewed as
  [500, 8, 1]. The message at (e, h, d) is v(e, h, d) times that score, the score being repeated along the 16 lanes.
-/
import proofs.«146397_j38843684225059_2_alg».proof.Proof.Gen.KernelIdeal.Skeleton
import proofs.«146397_j38843684225059_2_alg».proof.Proof.Spec
import proofs.«146397_j38843684225059_2_alg».proof.Proof.LibRank3
import proofs.«146397_j38843684225059_2_alg».proof.Proof.LibTrailingUnit

noncomputable section

open scoped BigOperators

namespace Cert.Attn.Ker

open Cert.KernelIdeal Cert.KernelIdeal.Gen Cert.Attn Idealize.ShloMosaic Idealize.ShloMosaic.ValueIdx

/-- The score block at (e, h, 0): the clipped, scaled, exponentiated lane sum of key times query. The operands of the
    product, the scaling, the maximum and the minimum stand in the same order as in `scoreRow`. -/
theorem pay_score_at (x0 x2 : Vec Ideal S500x8x16 .f32) (e : Fin 500) (h : Fin 8) (u : Fin 1) :
    k1_pay1 (F := Ideal) x0 x2 (ix3 e h u) = scoreRow (fun d => x0 (ix3 e h d)) (fun d => x2 (ix3 e h d)) := by
  unfold k1_pay1 scoreRow
  -- the casts to the same shape are the identity
  simp only [shapeCast_self]
  -- exp, min with 5, max with -5 and the product with 1/4 act entry by entry
  refine congrArg Ideal.exp (congrArg (min _) (congrArg (max _) (congrArg (· * _) ?_)))
  -- the view [500, 8] → [500, 8, 1] keeps the entry (e, h)
  refine (Cert.LibTrailingUnit.shapeCast_ab_ab1_apply _ shapeCasts_S500x8_S500x8x1 e h u).trans ?_
  -- the sum over the last axis into the zero word is the sum over the 16 lanes
  refine (Cert.LibRank3.lane_sum (mulf x0 x2) 0x00000000#32 reduces_S500x8x16_S500x8 _ _ e h).trans ?_
  rfl

/-- The score block is the specification's score array, index by index. -/
theorem pay_score (x0 x2 : Vec Ideal S500x8x16 .f32) (i : S500x8x1.Idx) :
    k1_pay1 (F := Ideal) x0 x2 i = scoreArr (n := 500) x0 x2 i := by
  obtain ⟨e, h, u, rfl⟩ : ∃ (e : Fin 500) (h : Fin 8) (u : Fin 1), i = ix3 e h u := ⟨i 0, i 1, i 2, eq_ix3 i⟩
  exact pay_score_at x0 x2 e h u

/-- The message block is the specification's message array, index by index: the value times the score of its edge and
    head, the score repeated along the lanes. -/
theorem pay_msg (x0 x2 x4 : Vec Ideal S500x8x16 .f32) (i : S500x8x16.Idx) :
    k1_pay2 (F := Ideal) x0 x2 x4 i = msgArr (n := 500) x0 x2 x4 i := by
  obtain ⟨e, h, d, rfl⟩ : ∃ (e : Fin 500) (h : Fin 8) (d : Fin 16), i = ix3 e h d := ⟨i 0, i 1, i 2, eq_ix3 i⟩
  unfold k1_pay2
  simp only [shapeCast_self]
  rw [mulf_apply]
  refine congrArg (x4 (ix3 e h d) * ·) ?_
  exact (Cert.LibTrailingUnit.broadcastTo_ab1_abc_apply _ broadcasts_S500x8x1_S500x8x16 e h d 0).trans
    (pay_score_at x0 x2 e h 0)

end Cert.Attn.Ker

end
-- ==== Proof.KI.Blocks1.lean ====
/-
  The edge kernel's output arrays after all its grid points, as whole-array functions of the arrays the region is
  entered with.

  The 1700 points walk the 850000 edges in blocks of 500: at point t every window is on block (t, 0, 0), so element
  (e, h, d) of a block is the array's element (500·t + e, h, d). The body turns the key, query and value blocks into the
  block of messages and the block of scores, and the score of an edge and head, hence also the message, uses only that
  edge's and head's 16 lanes; so what point t writes back is block t of the message array and of the score array of the
  whole gathered arrays. Every edge row r lies in the block of point r / 500, so the blocks tile the two output arrays,
  which therefore end holding the specification's message and score arrays.
-/
import proofs.«146397_j38843684225059_2_alg».proof.Proof.KI.Body1
import proofs.«146397_j38843684225059_2_alg».proof.Proof.PayEdges
import proofs.«146397_j38843684225059_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.Attn.Ker Idealize.ShloMosaic.ValueIdx

-- the TensorCore's buffer contents when the region is entered
variable (V : (c : Dev nD) → (b : Ref sig .tc) → Buf (Elt Ideal) ((c : Thread nD τ).loc b))

/-- The three zero offsets of a whole-buffer access. -/
theorem zero_offsets : (![0, 0, 0] : Fin 3 → Nat) = fun _ => 0 := funext fun a => by fin_cases a <;> rfl

/-- At point `t` every window of the edge kernel is on block (t, 0, 0): the 1700 points walk the edge axis in blocks of
    500 and never move on the head and lane axes. Decided over the grid. -/
theorem block_index1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-! ## The input blocks are rows 500·t … 500·t + 499 of their arrays -/

/-- Element (e, h, d) of the key block at point `t` is the key array's element (500·t + e, h, d). -/
theorem key_block_apply (c : Dev nD) (t : Fin cfg1.N) (y : S500x8x16.Idx) (i : S850000x8x16.Idx)
    (h0 : (i 0).val = 500 * t.val + (y 0).val) (h1 : (i 1).val = (y 1).val) (h2 : (i 2).val = (y 2).val) :
    (iblk1 V c 0 t : Vec Ideal S500x8x16 .f32) y = (V c main_v35 : S850000x8x16.Idx → EReal) i := by
  obtain ⟨e0, e1, e2⟩ := (block_index1 t).1
  unfold iblk1
  rw [View.read_apply]
  show V c main_v35 _ = V c main_v35 _
  refine congrArg (V c main_v35) ?_
  funext a
  apply Fin.ext
  -- on each axis: block index times block size plus the coordinate inside the block
  match a with
  | ⟨0, _⟩ => show win1_0.index t (0 : Fin 3) * 500 + 1 * (y 0).val = (i 0).val; rw [e0, h0]; omega
  | ⟨1, _⟩ => show win1_0.index t (1 : Fin 3) * 8 + 1 * (y 1).val = (i 1).val; rw [e1, h1]; omega
  | ⟨2, _⟩ => show win1_0.index t (2 : Fin 3) * 16 + 1 * (y 2).val = (i 2).val; rw [e2, h2]; omega

/-- Element (e, h, d) of the query block at point `t` is the query array's element (500·t + e, h, d). -/
theorem query_block_apply (c : Dev nD) (t : Fin cfg1.N) (y : S500x8x16.Idx) (i : S850000x8x16.Idx)
    (h0 : (i 0).val = 500 * t.val + (y 0).val) (h1 : (i 1).val = (y 1).val) (h2 : (i 2).val = (y 2).val) :
    (iblk1 V c 1 t : Vec Ideal S500x8x16 .f32) y = (V c main_v42 : S850000x8x16.Idx → EReal) i := by
  obtain ⟨e0, e1, e2⟩ := (block_index1 t).2.1
  unfold iblk1
  rw [View.read_apply]
  show V c main_v42 _ = V c main_v42 _
  refine congrArg (V c main_v42) ?_
  funext a
  apply Fin.ext
  -- on each axis: block index times block size plus the coordinate inside the block
  match a with
  | ⟨0, _⟩ => show win1_1.index t (0 : Fin 3) * 500 + 1 * (y 0).val = (i 0).val; rw [e0, h0]; omega
  | ⟨1, _⟩ => show win1_1.index t (1 : Fin 3) * 8 + 1 * (y 1).val = (i 1).val; rw [e1, h1]; omega
  | ⟨2, _⟩ => show win1_1.index t (2 : Fin 3) * 16 + 1 * (y 2).val = (i 2).val; rw [e2, h2]; omega

/-- Element (e, h, d) of the value block at point `t` is the value array's element (500·t + e, h, d). -/
theorem value_block_apply (c : Dev nD) (t : Fin cfg1.N) (y : S500x8x16.Idx) (i : S850000x8x16.Idx)
    (h0 : (i 0).val = 500 * t.val + (y 0).val) (h1 : (i 1).val = (y 1).val) (h2 : (i 2).val = (y 2).val) :
    (iblk1 V c 2 t : Vec Ideal S500x8x16 .f32) y = (V c main_v49 : S850000x8x16.Idx → EReal) i := by
  obtain ⟨e0, e1, e2⟩ := (block_index1 t).2.2.1
  unfold iblk1
  rw [View.read_apply]
  show V c main_v49 _ = V c main_v49 _
  refine congrArg (V c main_v49) ?_
  funext a
  apply Fin.ext
  -- on each axis: block index times block size plus the coordinate inside the block
  match a with
  | ⟨0, _⟩ => show win1_2.index t (0 : Fin 3) * 500 + 1 * (y 0).val = (i 0).val; rw [e0, h0]; omega
  | ⟨1, _⟩ => show win1_2.index t (1 : Fin 3) * 8 + 1 * (y 1).val = (i 1).val; rw [e1, h1]; omega
  | ⟨2, _⟩ => show win1_2.index t (2 : Fin 3) * 16 + 1 * (y 2).val = (i 2).val; rw [e2, h2]; omega

/-! ## The specification on a block is the specification on the array, 500·T rows further down

  The score of an edge and head uses only the 16 lanes of that edge's and head's key and query, and the message only
  that score and the value at the same place: so when the blocks `k`, `q`, `v` are the rows 500·T … of the arrays
  `K`, `Q`, `W`, the block's messages and scores are the arrays' at the shifted rows. -/

theorem msgArr_block (K Q W : S850000x8x16.Idx → EReal) (k q v : S500x8x16.Idx → EReal) (T : Nat)
    (hk : ∀ (y : S500x8x16.Idx) (i : S850000x8x16.Idx),
      (i 0).val = 500 * T + (y 0).val → (i 1).val = (y 1).val → (i 2).val = (y 2).val → k y = K i)
    (hq : ∀ (y : S500x8x16.Idx) (i : S850000x8x16.Idx),
      (i 0).val = 500 * T + (y 0).val → (i 1).val = (y 1).val → (i 2).val = (y 2).val → q y = Q i)
    (hv : ∀ (y : S500x8x16.Idx) (i : S850000x8x16.Idx),
      (i 0).val = 500 * T + (y 0).val → (i 1).val = (y 1).val → (i 2).val = (y 2).val → v y = W i)
    (y : S500x8x16.Idx) (i : S850000x8x16.Idx)
    (h0 : (i 0).val = 500 * T + (y 0).val) (h1 : (i 1).val = (y 1).val) (h2 : (i 2).val = (y 2).val) :
    msgArr (n := 500) k q v y = msgArr (n := 850000) K Q W i := by
  unfold msgArr
  rw [hv y i h0 h1 h2]
  refine congrArg (W i * ·) ?_
  -- lane d of the block's key and query at (e, h) is lane d of the arrays' at (500·T + e, h)
  exact congrArg₂ scoreRow (funext fun d => hk _ _ h0 h1 rfl) (funext fun d => hq _ _ h0 h1 rfl)

theorem scoreArr_block (K Q : S850000x8x16.Idx → EReal) (k q : S500x8x16.Idx → EReal) (T : Nat)
    (hk : ∀ (y : S500x8x16.Idx) (i : S850000x8x16.Idx),
      (i 0).val = 500 * T + (y 0).val → (i 1).val = (y 1).val → (i 2).val = (y 2).val → k y = K i)
    (hq : ∀ (y : S500x8x16.Idx) (i : S850000x8x16.Idx),
      (i 0).val = 500 * T + (y 0).val → (i 1).val = (y 1).val → (i 2).val = (y 2).val → q y = Q i)
    (y : S500x8x1.Idx) (i : S850000x8x1.Idx)
    (h0 : (i 0).val = 500 * T + (y 0).val) (h1 : (i 1).val = (y 1).val) :
    scoreArr (n := 500) k q y = scoreArr (n := 850000) K Q i := by
  unfold scoreArr
  exact congrArg₂ scoreRow (funext fun d => hk _ _ h0 h1 rfl) (funext fun d => hq _ _ h0 h1 rfl)

/-! ## What each point writes back -/

/-- Point `t` writes back block `t` of the message array of the gathered keys, queries and values. -/
theorem msg_flushed (c : Dev nD) (t : Fin cfg1.N) :
    (dat1 (F := Ideal) V c).flushed 3 t
      = ((cfg1.win 3).blk t).view.read (Elt Ideal)
          (msgArr (n := 850000) (V c main_v35) (V c main_v42) (V c main_v49)) := by
  show (cfg1.win 3).cut (grid1.coords t) ((dat1 V c).after 3 t) = _
  rw [after1_3]
  unfold out1_3
  -- the one store and the three loads take the whole buffer
  rw [View.canon_unit_zero zero_offsets]
  simp only [View.ld_unit_zero (S := S500x8x16) zero_offsets]
  obtain ⟨e0, e1, e2⟩ := (block_index1 t).2.2.2.1
  funext j
  show k1_pay2 (F := Ideal) (iblk1 V c 0 t) (iblk1 V c 1 t) (iblk1 V c 2 t) j
    = msgArr (n := 850000) (V c main_v35) (V c main_v42) (V c main_v49) (((cfg1.win 3).blk t).view.emb j)
  -- the body's arithmetic is the specification on the blocks; the blocks are the arrays' rows from 500·t
  refine (pay_msg _ _ _ _).trans ?_
  refine msgArr_block _ _ _ _ _ _ t.val (key_block_apply V c t) (query_block_apply V c t) (value_block_apply V c t) _ _ ?_ ?_ ?_
  · show win1_3.index t (0 : Fin 3) * 500 + 1 * (j 0).val = 500 * t.val + (j 0).val; rw [e0]; omega
  · show win1_3.index t (1 : Fin 3) * 8 + 1 * (j 1).val = (j 1).val; rw [e1]; omega
  · show win1_3.index t (2 : Fin 3) * 16 + 1 * (j 2).val = (j 2).val; rw [e2]; omega

/-- Point `t` writes back block `t` of the score array of the gathered keys and queries. -/
theorem score_flushed (c : Dev nD) (t : Fin cfg1.N) :
    (dat1 (F := Ideal) V c).flushed 4 t
      = ((cfg1.win 4).blk t).view.read (Elt Ideal) (scoreArr (n := 850000) (V c main_v35) (V c main_v42)) := by
  show (cfg1.win 4).cut (grid1.coords t) ((dat1 V c).after 4 t) = _
  rw [after1_4]
  unfold out1_4
  rw [View.canon_unit_zero zero_offsets]
  simp only [View.ld_unit_zero (S := S500x8x16) zero_offsets]
  obtain ⟨e0, e1, e2⟩ := (block_index1 t).2.2.2.2
  funext j
  show k1_pay1 (F := Ideal) (iblk1 V c 0 t) (iblk1 V c 1 t) j
    = scoreArr (n := 850000) (V c main_v35) (V c main_v42) (((cfg1.win 4).blk t).view.emb j)
  refine (pay_score _ _ _).trans ?_
  refine scoreArr_block _ _ _ _ t.val (key_block_apply V c t) (query_block_apply V c t) _ _ ?_ ?_
  · show win1_4.index t (0 : Fin 3) * 500 + 1 * (j 0).val = 500 * t.val + (j 0).val; rw [e0]; omega
  · show win1_4.index t (1 : Fin 3) * 8 + 1 * (j 1).val = (j 1).val; rw [e1]; omega

/-! ## The blocks tile the arrays: edge row r lies in the block of point r / 500 -/

/-- An index of the message array is in point `t`'s block iff each coordinate is in the block's range on its axis. -/
theorem mem_msg_block (t : Fin cfg1.N) (i : S850000x8x16.Idx) :
    i ∈ ((cfg1.win 3).blk t).view.set ↔ ∀ a : Fin 3, win1_3.index t a * S500x8x16.size a ≤ (i a).val
      ∧ (i a).val < win1_3.index t a * S500x8x16.size a + S500x8x16.size a := by
  show i ∈ ((View.whole main_v50_0).slice (win1_3.rect t)).set ↔ _
  rw [View.set_slice_whole, Rect.mem_set_unit]
  exact Iff.rfl

/-- The same for the score array. -/
theorem mem_score_block (t : Fin cfg1.N) (i : S850000x8x1.Idx) :
    i ∈ ((cfg1.win 4).blk t).view.set ↔ ∀ a : Fin 3, win1_4.index t a * S500x8x1.size a ≤ (i a).val
      ∧ (i a).val < win1_4.index t a * S500x8x1.size a + S500x8x1.size a := by
  show i ∈ ((View.whole main_v50_1).slice (win1_4.rect t)).set ↔ _
  rw [View.set_slice_whole, Rect.mem_set_unit]
  exact Iff.rfl

/-- Every index of the message array is in the block of the point (edge row) / 500, which writes it back. -/
theorem msg_blocks_cover (i : S850000x8x16.Idx) :
    ∃ t : Fin cfg1.N, (cfg1.win 3).flush t = true ∧ i ∈ ((cfg1.win 3).blk t).view.set := by
  have hN : grid1.N = 1700 := N_1
  have hi0 : (i 0).val < 850000 := (i 0).isLt
  have hi1 : (i 1).val < 8 := (i 1).isLt
  have hi2 : (i 2).val < 16 := (i 2).isLt
  obtain ⟨t, ht⟩ : ∃ t : Fin cfg1.N, t.val = (i 0).val / 500 :=
    ⟨⟨(i 0).val / 500, by show _ < grid1.N; omega⟩, rfl⟩
  obtain ⟨e0, e1, e2⟩ := (block_index1 t).2.2.2.1
  refine ⟨t, flush1_3 t, ?_⟩
  rw [mem_msg_block]
  intro a
  match a with
  | ⟨0, _⟩ => show win1_3.index t (0 : Fin 3) * 500 ≤ (i 0).val ∧ (i 0).val < win1_3.index t (0 : Fin 3) * 500 + 500; rw [e0]; omega
  | ⟨1, _⟩ => show win1_3.index t (1 : Fin 3) * 8 ≤ (i 1).val ∧ (i 1).val < win1_3.index t (1 : Fin 3) * 8 + 8; rw [e1]; omega
  | ⟨2, _⟩ => show win1_3.index t (2 : Fin 3) * 16 ≤ (i 2).val ∧ (i 2).val < win1_3.index t (2 : Fin 3) * 16 + 16; rw [e2]; omega

/-- Every index of the score array is in the block of the point (edge row) / 500, which writes it back. -/
theorem score_blocks_cover (i : S850000x8x1.Idx) :
    ∃ t : Fin cfg1.N, (cfg1.win 4).flush t = true ∧ i ∈ ((cfg1.win 4).blk t).view.set := by
  have hN : grid1.N = 1700 := N_1
  have hi0 : (i 0).val < 850000 := (i 0).isLt
  have hi1 : (i 1).val < 8 := (i 1).isLt
  have hi2 : (i 2).val < 1 := (i 2).isLt
  obtain ⟨t, ht⟩ : ∃ t : Fin cfg1.N, t.val = (i 0).val / 500 :=
    ⟨⟨(i 0).val / 500, by show _ < grid1.N; omega⟩, rfl⟩
  obtain ⟨e0, e1, e2⟩ := (block_index1 t).2.2.2.2
  refine ⟨t, flush1_4 t, ?_⟩
  rw [mem_score_block]
  intro a
  match a with
  | ⟨0, _⟩ => show win1_4.index t (0 : Fin 3) * 500 ≤ (i 0).val ∧ (i 0).val < win1_4.index t (0 : Fin 3) * 500 + 500; rw [e0]; omega
  | ⟨1, _⟩ => show win1_4.index t (1 : Fin 3) * 8 ≤ (i 1).val ∧ (i 1).val < win1_4.index t (1 : Fin 3) * 8 + 8; rw [e1]; omega
  | ⟨2, _⟩ => show win1_4.index t (2 : Fin 3) * 1 ≤ (i 2).val ∧ (i 2).val < win1_4.index t (2 : Fin 3) * 1 + 1; rw [e2]; omega

/-! ## The arrays after all 1700 points -/

/-- The message array ends holding, at every (edge, head, lane), the value times the edge's score for that head. -/
theorem final1_3 (c : Dev nD) :
    (dat1 (F := Ideal) V c).arrAt 3 cfg1.N = msgArr (n := 850000) (V c main_v35) (V c main_v42) (V c main_v49) :=
  (dat1 V c).arrAt_eq_of_cover 3 (msgArr (n := 850000) (V c main_v35) (V c main_v42) (V c main_v49))
    (fun t _ => msg_flushed V c t) msg_blocks_cover

/-- The score array ends holding, at every (edge, head), the score of the gathered key and query. -/
theorem final1_4 (c : Dev nD) :
    (dat1 (F := Ideal) V c).arrAt 4 cfg1.N = scoreArr (n := 850000) (V c main_v35) (V c main_v42) :=
  (dat1 V c).arrAt_eq_of_cover 4 (scoreArr (n := 850000) (V c main_v35) (V c main_v42))
    (fun t _ => score_flushed V c t) score_blocks_cover

end Cert.KernelIdeal.Hand

end
-- ==== Proof.HostLayout.lean ====
/-
  The kernel program's layout operations around its fused projection, read at an index.

  The program pads the node matrix from 50001 to 50176 rows with zeros, puts the three 128 x 128 weights side by side
  as one 128 x 384 matrix and the three biases end to end as one row of 384, projects once, keeps the first 50001 rows,
  and cuts the 384 output features into three windows of 128, each read as 8 heads of 16 lanes. Entry (node, head, lane)
  of a window is therefore the node's own row through that window's layer at feature 16 head + lane: the padding rows
  are never read, a fused column 128 s + c is column c of the s-th weight, and the same holds for the bias.
-/
import proofs.«146397_j38843684225059_2_alg».proof.Proof.Gen.KernelIdeal
import proofs.«146397_j38843684225059_2_alg».proof.Proof.Spec
import Idealize.ShloMosaic.Lib.Pipeline.Value
import Idealize.ShloMosaic.Lib.ValueIdx

noncomputable section

open scoped BigOperators

namespace Cert.Attn.Ker

open Cert.KernelIdeal Cert.KernelIdeal.Gen Cert.Attn Idealize.ShloMosaic Idealize.ShloMosaic.ValueIdx

/-- The padded node matrix at a row below 50001 is the unpadded matrix's row. -/
theorem pad_row (h : S50001x128.Idx → EReal) (z : S175x128.Idx → EReal) (n : Fin 50001) (k : Fin 128) :
    concatenate S50176x128 0 [⟨S50001x128, h⟩, ⟨S175x128, z⟩] concatenates_S50001x128_S175x128_S50176x128_d0
        (ix2 (⟨n.val, by omega⟩ : Fin 50176) k) = h (ix2 n k) :=
  concatenate_pair_apply_left (0 : Fin S50176x128.rank) h z _ _ rfl (ix2 n k)
    (fun b => match b with | ⟨0, _⟩ => rfl | ⟨1, _⟩ => rfl)

/-- The three weights side by side, as the list of pieces the concatenation takes. -/
abbrev wPieces (wq wk wv : S128x128.Idx → EReal) : List ((s : Shape) × (s.Idx → EReal)) :=
  [⟨S128x128, wq⟩, ⟨S128x128, wk⟩, ⟨S128x128, wv⟩]

/-- The three biases end to end, as the list of pieces the concatenation takes. -/
abbrev bPieces (bq bk bv : S128.Idx → EReal) : List ((s : Shape) × (s.Idx → EReal)) :=
  [⟨S128, bq⟩, ⟨S128, bk⟩, ⟨S128, bv⟩]

/-- The fused weight's column `c` (below 128) is the query weight's column `c`. -/
theorem fused_w_q (wq wk wv : S128x128.Idx → EReal) (k c : Fin 128) :
    concatenate S128x384 1 [⟨S128x128, wq⟩, ⟨S128x128, wk⟩, ⟨S128x128, wv⟩] concatenates_S128x128_S128x128_S128x128_S128x384_d1
        (ix2 k (⟨c.val, by omega⟩ : Fin 384)) = wq (ix2 k c) :=
  concatenate_apply_piece (1 : Fin S128x384.rank) (wPieces wq wk wv) concatenates_S128x128_S128x128_S128x128_S128x384_d1 _ 0 (by show 0 < 3; omega) S128x128 wq rfl rfl 0 rfl (ix2 k c)
    (fun b hb => match b, hb with | ⟨0, _⟩, _ => rfl | ⟨1, _⟩, hb => absurd rfl hb)
    (by show 0 + c.val = c.val; omega)

/-- The fused weight's column `128 + c` is the key weight's column `c`. -/
theorem fused_w_k (wq wk wv : S128x128.Idx → EReal) (k c : Fin 128) :
    concatenate S128x384 1 [⟨S128x128, wq⟩, ⟨S128x128, wk⟩, ⟨S128x128, wv⟩] concatenates_S128x128_S128x128_S128x128_S128x384_d1
        (ix2 k (⟨128 + c.val, by omega⟩ : Fin 384)) = wk (ix2 k c) :=
  concatenate_apply_piece (1 : Fin S128x384.rank) (wPieces wq wk wv) concatenates_S128x128_S128x128_S128x128_S128x384_d1 _ 1 (by show 1 < 3; omega) S128x128 wk rfl rfl 128 rfl (ix2 k c)
    (fun b hb => match b, hb with | ⟨0, _⟩, _ => rfl | ⟨1, _⟩, hb => absurd rfl hb)
    (by show 128 + c.val = 128 + c.val; rfl)

/-- The fused weight's column `256 + c` is the value weight's column `c`. -/
theorem fused_w_v (wq wk wv : S128x128.Idx → EReal) (k c : Fin 128) :
    concatenate S128x384 1 [⟨S128x128, wq⟩, ⟨S128x128, wk⟩, ⟨S128x128, wv⟩] concatenates_S128x128_S128x128_S128x128_S128x384_d1
        (ix2 k (⟨256 + c.val, by omega⟩ : Fin 384)) = wv (ix2 k c) :=
  concatenate_apply_piece (1 : Fin S128x384.rank) (wPieces wq wk wv) concatenates_S128x128_S128x128_S128x128_S128x384_d1 _ 2 (by show 2 < 3; omega) S128x128 wv rfl rfl 256 rfl (ix2 k c)
    (fun b hb => match b, hb with | ⟨0, _⟩, _ => rfl | ⟨1, _⟩, hb => absurd rfl hb)
    (by show 256 + c.val = 256 + c.val; rfl)

/-- The fused bias, as one row, at column `c` (below 128) is the query bias at `c`. -/
theorem fused_b_q (bq bk bv : S128.Idx → EReal) (c : Fin 128) :
    shapeCast S1x384 (concatenate S384 0 [⟨S128, bq⟩, ⟨S128, bk⟩, ⟨S128, bv⟩] concatenates_S128_S128_S128_S384_d0) shapeCasts_S384_S1x384
        (ix2 (0 : Fin 1) (⟨c.val, by omega⟩ : Fin 384)) = bq (ix1 c) := by
  refine (shapeCast_apply _ shapeCasts_S384_S1x384 _ (ix1 (⟨c.val, by omega⟩ : Fin 384)) ?_).trans ?_
  · rw [Shape.rowMajor_val_one, Shape.rowMajor_val_two]
    show c.val = 0 * 384 + c.val
    omega
  · exact concatenate_apply_piece (0 : Fin S384.rank) (bPieces bq bk bv) concatenates_S128_S128_S128_S384_d0 _ 0 (by show 0 < 3; omega) S128 bq rfl rfl 0 rfl (ix1 c)
      (fun b hb => match b, hb with | ⟨0, _⟩, hb => absurd rfl hb) (by show 0 + c.val = c.val; omega)

/-- The fused bias, as one row, at column `128 + c` is the key bias at `c`. -/
theorem fused_b_k (bq bk bv : S128.Idx → EReal) (c : Fin 128) :
    shapeCast S1x384 (concatenate S384 0 [⟨S128, bq⟩, ⟨S128, bk⟩, ⟨S128, bv⟩] concatenates_S128_S128_S128_S384_d0) shapeCasts_S384_S1x384
        (ix2 (0 : Fin 1) (⟨128 + c.val, by omega⟩ : Fin 384)) = bk (ix1 c) := by
  refine (shapeCast_apply _ shapeCasts_S384_S1x384 _ (ix1 (⟨128 + c.val, by omega⟩ : Fin 384)) ?_).trans ?_
  · rw [Shape.rowMajor_val_one, Shape.rowMajor_val_two]
    show 128 + c.val = 0 * 384 + (128 + c.val)
    omega
  · exact concatenate_apply_piece (0 : Fin S384.rank) (bPieces bq bk bv) concatenates_S128_S128_S128_S384_d0 _ 1 (by show 1 < 3; omega) S128 bk rfl rfl 128 rfl (ix1 c)
      (fun b hb => match b, hb with | ⟨0, _⟩, hb => absurd rfl hb) (by show 128 + c.val = 128 + c.val; rfl)

/-- The fused bias, as one row, at column `256 + c` is the value bias at `c`. -/
theorem fused_b_v (bq bk bv : S128.Idx → EReal) (c : Fin 128) :
    shapeCast S1x384 (concatenate S384 0 [⟨S128, bq⟩, ⟨S128, bk⟩, ⟨S128, bv⟩] concatenates_S128_S128_S128_S384_d0) shapeCasts_S384_S1x384
        (ix2 (0 : Fin 1) (⟨256 + c.val, by omega⟩ : Fin 384)) = bv (ix1 c) := by
  refine (shapeCast_apply _ shapeCasts_S384_S1x384 _ (ix1 (⟨256 + c.val, by omega⟩ : Fin 384)) ?_).trans ?_
  · rw [Shape.rowMajor_val_one, Shape.rowMajor_val_two]
    show 256 + c.val = 0 * 384 + (256 + c.val)
    omega
  · exact concatenate_apply_piece (0 : Fin S384.rank) (bPieces bq bk bv) concatenates_S128_S128_S128_S384_d0 _ 2 (by show 2 < 3; omega) S128 bv rfl rfl 256 rfl (ix1 c)
      (fun b hb => match b, hb with | ⟨0, _⟩, hb => absurd rfl hb) (by show 256 + c.val = 256 + c.val; rfl)

/-- The rows-and-columns window of the fused projection read as heads: entry (node, head, lane) of the reshaped
    128-column window at column offset `off` is the fused projection at row `node`, column `off + 16 head + lane`. -/
theorem heads_read (qkv : S50176x384.Idx → EReal) (off : Nat) (h2 : S50001x384.Slices ![0, off] S50001x128)
    (n : Fin 50001) (hd : Fin 8) (d : Fin 16) (c : Fin 384) (hc : c.val = off + (16 * hd.val + d.val)) :
    shapeCast S50001x8x16 (extractStridedSlice S50001x128 ![0, off]
        (extractStridedSlice S50001x384 ![0, 0] qkv slices_S50176x384_S50001x384_0_0) h2) shapeCasts_S50001x128_S50001x8x16 (ix3 n hd d)
      = qkv (ix2 (⟨n.val, by omega⟩ : Fin 50176) c) := by
  refine (shapeCast_apply _ shapeCasts_S50001x128_S50001x8x16 _ (ix2 n (col hd d)) ?_).trans ?_
  · rw [Shape.rowMajor_val_two, Shape.rowMajor_val_three]
    show n.val * 128 + (16 * hd.val + d.val) = (n.val * 8 + hd.val) * 16 + d.val
    omega
  refine (extractStridedSlice_apply _ _ h2 _ (ix2 n c) ?_).trans ?_
  · intro a
    match a with
    | ⟨0, _⟩ => show n.val = 0 + n.val; omega
    | ⟨1, _⟩ => show c.val = off + (16 * hd.val + d.val); exact hc
  exact extractStridedSlice_apply _ _ slices_S50176x384_S50001x384_0_0 _ _ (fun a => match a with
    | ⟨0, _⟩ => by show n.val = 0 + n.val; omega
    | ⟨1, _⟩ => by show c.val = 0 + c.val; omega)

/-- The query heads: the first 128 columns of the fused projection of the padded node matrix, cut to the first 50001 rows
    and read as 8 heads of 16 lanes, are the node matrix through the query layer read as heads. -/
theorem heads_q_of_qkv (h : (⟨S50001x128, .f32⟩ : BufTy).Contents (Elt Ideal)) (z : (⟨S175x128, .f32⟩ : BufTy).Contents (Elt Ideal))
    (wq wk wv : (⟨S128x128, .f32⟩ : BufTy).Contents (Elt Ideal)) (bq bk bv : (⟨S128, .f32⟩ : BufTy).Contents (Elt Ideal)) :
    shapeCast S50001x8x16 (extractStridedSlice S50001x128 ![0, 0] (extractStridedSlice S50001x384 ![0, 0]
        (qkvArr (concatenate S50176x128 0 [⟨S50001x128, h⟩, ⟨S175x128, z⟩] concatenates_S50001x128_S175x128_S50176x128_d0)
                (concatenate S128x384 1 [⟨S128x128, wq⟩, ⟨S128x128, wk⟩, ⟨S128x128, wv⟩] concatenates_S128x128_S128x128_S128x128_S128x384_d1)
                (shapeCast S1x384 (concatenate S384 0 [⟨S128, bq⟩, ⟨S128, bk⟩, ⟨S128, bv⟩] concatenates_S128_S128_S128_S384_d0) shapeCasts_S384_S1x384))
        slices_S50176x384_S50001x384_0_0) slices_S50001x384_S50001x128_0_0) shapeCasts_S50001x128_S50001x8x16
      = headsArr h wq bq := by
  funext i
  obtain ⟨n, hd, d, rfl⟩ : ∃ (n : Fin 50001) (hd : Fin 8) (d : Fin 16), i = ix3 n hd d := ⟨i 0, i 1, i 2, eq_ix3 i⟩
  refine (heads_read _ 0 slices_S50001x384_S50001x128_0_0 n hd d (⟨(col hd d).val, by have := (col hd d).isLt; omega⟩ : Fin 384) (by show 16 * hd.val + d.val = 0 + (16 * hd.val + d.val); omega)).trans ?_
  exact congrArg₂ (· + ·)
    (Finset.sum_congr rfl fun k _ => congrArg₂ (· * ·) (pad_row h z n k) (fused_w_q wq wk wv k (col hd d)))
    (fused_b_q bq bk bv (col hd d))

/-- The key heads: columns 128 to 255 of the fused projection, likewise, are the node matrix through the key layer. -/
theorem heads_k_of_qkv (h : (⟨S50001x128, .f32⟩ : BufTy).Contents (Elt Ideal)) (z : (⟨S175x128, .f32⟩ : BufTy).Contents (Elt Ideal))
    (wq wk wv : (⟨S128x128, .f32⟩ : BufTy).Contents (Elt Ideal)) (bq bk bv : (⟨S128, .f32⟩ : BufTy).Contents (Elt Ideal)) :
    shapeCast S50001x8x16 (extractStridedSlice S50001x128 ![0, 128] (extractStridedSlice S50001x384 ![0, 0]
        (qkvArr (concatenate S50176x128 0 [⟨S50001x128, h⟩, ⟨S175x128, z⟩] concatenates_S50001x128_S175x128_S50176x128_d0)
                (concatenate S128x384 1 [⟨S128x128, wq⟩, ⟨S128x128, wk⟩, ⟨S128x128, wv⟩] concatenates_S128x128_S128x128_S128x128_S128x384_d1)
                (shapeCast S1x384 (concatenate S384 0 [⟨S128, bq⟩, ⟨S128, bk⟩, ⟨S128, bv⟩] concatenates_S128_S128_S128_S384_d0) shapeCasts_S384_S1x384))
        slices_S50176x384_S50001x384_0_0) slices_S50001x384_S50001x128_0_128) shapeCasts_S50001x128_S50001x8x16
      = headsArr h wk bk := by
  funext i
  obtain ⟨n, hd, d, rfl⟩ : ∃ (n : Fin 50001) (hd : Fin 8) (d : Fin 16), i = ix3 n hd d := ⟨i 0, i 1, i 2, eq_ix3 i⟩
  refine (heads_read _ 128 slices_S50001x384_S50001x128_0_128 n hd d (⟨128 + (col hd d).val, by have := (col hd d).isLt; omega⟩ : Fin 384) rfl).trans ?_
  exact congrArg₂ (· + ·)
    (Finset.sum_congr rfl fun k _ => congrArg₂ (· * ·) (pad_row h z n k) (fused_w_k wq wk wv k (col hd d)))
    (fused_b_k bq bk bv (col hd d))

/-- The value heads: columns 256 to 383 of the fused projection, likewise, are the node matrix through the value layer. -/
theorem heads_v_of_qkv (h : (⟨S50001x128, .f32⟩ : BufTy).Contents (Elt Ideal)) (z : (⟨S175x128, .f32⟩ : BufTy).Contents (Elt Ideal))
    (wq wk wv : (⟨S128x128, .f32⟩ : BufTy).Contents (Elt Ideal)) (bq bk bv : (⟨S128, .f32⟩ : BufTy).Contents (Elt Ideal)) :
    shapeCast S50001x8x16 (extractStridedSlice S50001x128 ![0, 256] (extractStridedSlice S50001x384 ![0, 0]
        (qkvArr (concatenate S50176x128 0 [⟨S50001x128, h⟩, ⟨S175x128, z⟩] concatenates_S50001x128_S175x128_S50176x128_d0)
                (concatenate S128x384 1 [⟨S128x128, wq⟩, ⟨S128x128, wk⟩, ⟨S128x128, wv⟩] concatenates_S128x128_S128x128_S128x128_S128x384_d1)
                (shapeCast S1x384 (concatenate S384 0 [⟨S128, bq⟩, ⟨S128, bk⟩, ⟨S128, bv⟩] concatenates_S128_S128_S128_S384_d0) shapeCasts_S384_S1x384))
        slices_S50176x384_S50001x384_0_0) slices_S50001x384_S50001x128_0_256) shapeCasts_S50001x128_S50001x8x16
      = headsArr h wv bv := by
  funext i
  obtain ⟨n, hd, d, rfl⟩ : ∃ (n : Fin 50001) (hd : Fin 8) (d : Fin 16), i = ix3 n hd d := ⟨i 0, i 1, i 2, eq_ix3 i⟩
  refine (heads_read _ 256 slices_S50001x384_S50001x128_0_256 n hd d (⟨256 + (col hd d).val, by have := (col hd d).isLt; omega⟩ : Fin 384) rfl).trans ?_
  exact congrArg₂ (· + ·)
    (Finset.sum_congr rfl fun k _ => congrArg₂ (· * ·) (pad_row h z n k) (fused_w_v wq wk wv k (col hd d)))
    (fused_b_v bq bk bv (col hd d))

end Cert.Attn.Ker

end
-- ==== Proof.RefSide.lean ====
/-
  The reference program's side of one sparse graph-attention layer: its three projections read as heads, its edge
  scores and its messages are the shared specification's arrays.

  A projection is reshape[50001,128 → 50001,8,16] of a matrix product plus a bias row broadcast over the nodes; entry
  (n, h, d) of the reshape is entry (n, 16 h + d) of the matrix, because 128 = 8 · 16 and the layout is row-major.
  The score is exp (min 5 (max (-5) ((0 + ∑ d < 16, k d · q d) / 4))); division by 4 is multiplication by one quarter
  on every extended real, the infinities included. The message is the gathered value times the score of its edge and
  head, the score being broadcast along the 16 lanes.
-/
import proofs.«146397_j38843684225059_2_alg».proof.Proof.Gen.ReferenceIdeal.Read
import proofs.«146397_j38843684225059_2_alg».proof.Proof.Spec

noncomputable section

open scoped BigOperators

namespace Cert.Attn.Ref

open Cert.ReferenceIdeal Cert.ReferenceIdeal.Gen Cert.ReferenceIdeal.Read Cert.Attn
open Idealize.ShloMosaic Idealize.ShloMosaic.ValueIdx Idealize.ShloMosaic.TcCoe Idealize.SL.Sem Idealize.ShloMosaic.StableHlo

/-! ## Two float words as reals -/

/-- The f32 word `0x40800000` is the real 4. -/
theorem ofBits_four : Ideal.ofBits .f32 0x40800000#32 = ((4 : ℝ) : EReal) := by
  simp [Ideal.ofBits, Ideal.ieee, -EReal.coe_mul]; norm_num

/-- The f32 word `0x3E800000` is the real 2⁻², one quarter. -/
theorem ofBits_quarter : Ideal.ofBits .f32 0x3E800000#32 = (((1 : ℝ) / 4 : ℝ) : EReal) := by
  simp [Ideal.ofBits, Ideal.ieee, -EReal.coe_mul]; norm_num

/-- Dividing by the word of 4 is multiplying by the word of one quarter, on every extended real. -/
theorem div_four (x : EReal) :
    Ideal.div x (Ideal.ofBits .f32 0x40800000#32) = x * Ideal.ofBits .f32 0x3E800000#32 := by
  rw [ofBits_four, ofBits_quarter, Ideal.div_coe (by norm_num)]

/-! ## The three projections read as heads -/

/-- The query projection: entry (n, h, d) is feature `16 h + d` of node `n`'s row through the query layer. -/
theorem heads_q (x0 : (⟨S50000x128, .f32⟩ : BufTy).Contents (Elt Ideal)) (x2 : (⟨S128x128, .f32⟩ : BufTy).Contents (Elt Ideal)) (x3 : (⟨S128, .f32⟩ : BufTy).Contents (Elt Ideal)) :
    val_main_v20 (F := Ideal) x0 x2 x3 = headsArr (val_main_v1 (F := Ideal) x0) x2 x3 := by
  funext i
  obtain ⟨n, hd, d, rfl⟩ : ∃ (n : Fin 50001) (hd : Fin 8) (d : Fin 16), i = ix3 n hd d := ⟨i 0, i 1, i 2, eq_ix3 i⟩
  have h1 : hd.val < 8 := hd.isLt
  have h2 : d.val < 16 := d.isLt
  rw [val_main_v20_apply, val_main_v19_apply, val_main_v16_apply, val_main_v18_apply, val_main_v17_apply]
  simp only [Ideal.addf_def]
  unfold headsArr projAt
  refine congrArg₂ (· + ·) (Finset.sum_congr rfl fun k _ => congrArg₂ (· * ·) (congrArg _ ?_) (congrArg _ ?_)) (congrArg _ ?_)
  · exact funext fun a => Fin.ext (by
      match a with
      | ⟨0, _⟩ => show ((n.val * 8 + hd.val) * 16 + d.val) / 128 = n.val; omega
      | ⟨1, _⟩ => rfl)
  · exact funext fun a => Fin.ext (by
      match a with
      | ⟨0, _⟩ => rfl
      | ⟨1, _⟩ => show ((n.val * 8 + hd.val) * 16 + d.val) % 128 = 16 * hd.val + d.val; omega)
  · exact funext fun a => Fin.ext (by
      match a with
      | ⟨0, _⟩ => show ((n.val * 8 + hd.val) * 16 + d.val) % 128 = 16 * hd.val + d.val; omega)

/-- The key projection, likewise. -/
theorem heads_k (x0 : (⟨S50000x128, .f32⟩ : BufTy).Contents (Elt Ideal)) (x4 : (⟨S128x128, .f32⟩ : BufTy).Contents (Elt Ideal)) (x5 : (⟨S128, .f32⟩ : BufTy).Contents (Elt Ideal)) :
    val_main_v25 (F := Ideal) x0 x4 x5 = headsArr (val_main_v1 (F := Ideal) x0) x4 x5 := by
  funext i
  obtain ⟨n, hd, d, rfl⟩ : ∃ (n : Fin 50001) (hd : Fin 8) (d : Fin 16), i = ix3 n hd d := ⟨i 0, i 1, i 2, eq_ix3 i⟩
  have h1 : hd.val < 8 := hd.isLt
  have h2 : d.val < 16 := d.isLt
  rw [val_main_v25_apply, val_main_v24_apply, val_main_v21_apply, val_main_v23_apply, val_main_v22_apply]
  simp only [Ideal.addf_def]
  unfold headsArr projAt
  refine congrArg₂ (· + ·) (Finset.sum_congr rfl fun k _ => congrArg₂ (· * ·) (congrArg _ ?_) (congrArg _ ?_)) (congrArg _ ?_)
  · exact funext fun a => Fin.ext (by
      match a with
      | ⟨0, _⟩ => show ((n.val * 8 + hd.val) * 16 + d.val) / 128 = n.val; omega
      | ⟨1, _⟩ => rfl)
  · exact funext fun a => Fin.ext (by
      match a with
      | ⟨0, _⟩ => rfl
      | ⟨1, _⟩ => show ((n.val * 8 + hd.val) * 16 + d.val) % 128 = 16 * hd.val + d.val; omega)
  · exact funext fun a => Fin.ext (by
      match a with
      | ⟨0, _⟩ => show ((n.val * 8 + hd.val) * 16 + d.val) % 128 = 16 * hd.val + d.val; omega)

/-- The value projection, likewise. -/
theorem heads_v (x0 : (⟨S50000x128, .f32⟩ : BufTy).Contents (Elt Ideal)) (x6 : (⟨S128x128, .f32⟩ : BufTy).Contents (Elt Ideal)) (x7 : (⟨S128, .f32⟩ : BufTy).Contents (Elt Ideal)) :
    val_main_v30 (F := Ideal) x0 x6 x7 = headsArr (val_main_v1 (F := Ideal) x0) x6 x7 := by
  funext i
  obtain ⟨n, hd, d, rfl⟩ : ∃ (n : Fin 50001) (hd : Fin 8) (d : Fin 16), i = ix3 n hd d := ⟨i 0, i 1, i 2, eq_ix3 i⟩
  have h1 : hd.val < 8 := hd.isLt
  have h2 : d.val < 16 := d.isLt
  rw [val_main_v30_apply, val_main_v29_apply, val_main_v26_apply, val_main_v28_apply, val_main_v27_apply]
  simp only [Ideal.addf_def]
  unfold headsArr projAt
  refine congrArg₂ (· + ·) (Finset.sum_congr rfl fun k _ => congrArg₂ (· * ·) (congrArg _ ?_) (congrArg _ ?_)) (congrArg _ ?_)
  · exact funext fun a => Fin.ext (by
      match a with
      | ⟨0, _⟩ => show ((n.val * 8 + hd.val) * 16 + d.val) / 128 = n.val; omega
      | ⟨1, _⟩ => rfl)
  · exact funext fun a => Fin.ext (by
      match a with
      | ⟨0, _⟩ => rfl
      | ⟨1, _⟩ => show ((n.val * 8 + hd.val) * 16 + d.val) % 128 = 16 * hd.val + d.val; omega)
  · exact funext fun a => Fin.ext (by
      match a with
      | ⟨0, _⟩ => show ((n.val * 8 + hd.val) * 16 + d.val) % 128 = 16 * hd.val + d.val; omega)

/-! ## The edge scores and the messages -/

/-- The score of edge `e` and head `h`: exp of the clipped, scaled dot product of the gathered key and query lanes. -/
theorem score_ref (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v51 (F := Ideal) x0 x1 x2 x3 x4 x5
      = scoreArr (n := 850000) (val_main_v37 (F := Ideal) x0 x1 x4 x5) (val_main_v44 (F := Ideal) x0 x1 x2 x3) := by
  funext i
  obtain ⟨e, hd, z, rfl⟩ : ∃ (e : Fin 850000) (hd : Fin 8) (z : Fin 1), i = ix3 e hd z := ⟨i 0, i 1, i 2, eq_ix3 i⟩
  rw [val_main_v51_apply, val_main_v50_apply, val_main_call0_v4_apply, val_main_call0_v3_apply, val_main_cst_10_apply,
    val_main_call0_v2_apply, val_main_call0_v1_apply, val_main_call0_v0_apply, val_main_cst_9_apply,
    val_main_v49_apply, val_main_v47_apply, val_main_v46_apply, val_main_cst_7_apply, val_main_v48_apply,
    val_main_cst_8_apply]
  simp only [val_main_v45_apply, Ideal.hostUnary_exp_def, Ideal.minimumf_def, Ideal.maximumf_def, Ideal.hostDivf_def,
    Ideal.mulf_def, Ideal.ofBits_def, Ideal.ofBits_zero_f32, zero_add]
  rw [div_four]
  unfold scoreArr scoreRow
  refine congrArg Ideal.exp (congrArg (min _) (congrArg (max _) (congrArg (· * _) (Finset.sum_congr rfl fun k _ => ?_))))
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl | ⟨2, _⟩ => rfl)))

/-- The message of edge `e`, head `h`, lane `d`: the gathered value times the score of `(e, h)`. -/
theorem msg_ref (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v60 (F := Ideal) x0 x1 x2 x3 x4 x5 x6 x7
      = msgArr (n := 850000) (val_main_v37 (F := Ideal) x0 x1 x4 x5) (val_main_v44 (F := Ideal) x0 x1 x2 x3)
          (val_main_v58 (F := Ideal) x0 x1 x6 x7) := by
  funext i
  obtain ⟨e, hd, d, rfl⟩ : ∃ (e : Fin 850000) (hd : Fin 8) (d : Fin 16), i = ix3 e hd d := ⟨i 0, i 1, i 2, eq_ix3 i⟩
  rw [val_main_v60_apply, val_main_v59_apply, score_ref]
  simp only [Ideal.mulf_def]
  rfl

end Cert.Attn.Ref

end
-- ==== Proof.KI.Bridge.lean ====
/-
  The two programs compute one function. The kernel program's buffers are followed from the launch to the return: the
  first host stretch pads the node matrix and fuses the three layers' weights and biases; the projection kernel leaves the
  fused projection; the second stretch cuts it into query, key and value heads and gathers them along the edges — the
  reference's gathered arrays, because a head of the fused projection is that layer's projection; the edge kernel leaves
  the reference's messages and scores; the last stretch is the reference's own tail of operations.
-/
import proofs.«146397_j38843684225059_2_alg».proof.Proof.KI.Run
import proofs.«146397_j38843684225059_2_alg».proof.Proof.KI.Blocks0
import proofs.«146397_j38843684225059_2_alg».proof.Proof.KI.Blocks1
import proofs.«146397_j38843684225059_2_alg».proof.Proof.HostLayout
import proofs.«146397_j38843684225059_2_alg».proof.Proof.RefSide
import proofs.«146397_j38843684225059_2_alg».proof.Proof.Spec
import Idealize.ShloMosaic.Lib.StableHlo.Run

set_option maxRecDepth 16384

noncomputable section

namespace Cert.KernelIdeal.Hand

open Cert.KernelIdeal Cert.KernelIdeal.Gen Cert.Attn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-! ## What the first host stretch hands the projection kernel -/

/-- The padded node matrix: the reference's node matrix with 175 zero rows below. -/
theorem entry_x (c : Dev nD) : U1 m c main_v3 = concatenate S50176x128 0
    [⟨S50001x128, Cert.ReferenceIdeal.Read.val_main_v1 (F := Ideal) (m ((c : Thread nD τ).loc main_arg0))⟩,
     ⟨S175x128, broadcastInDim S175x128 ![] bcast_S_S175x128 (constant (F := Ideal) S_ .f32 0x00000000#32)⟩]
    concatenates_S50001x128_S175x128_S50176x128_d0 := by
  show StableHlo.after hostOps0 (W0 m c) (Proc.devRef .tc main_v3) = _
  after_results
  rfl

/-- The fused weight: the three layers' weights side by side. -/
theorem entry_w (c : Dev nD) : U1 m c main_v4 = concatenate S128x384 1
    [⟨S128x128, m ((c : Thread nD τ).loc main_arg2)⟩, ⟨S128x128, m ((c : Thread nD τ).loc main_arg4)⟩, ⟨S128x128, m ((c : Thread nD τ).loc main_arg6)⟩]
    concatenates_S128x128_S128x128_S128x128_S128x384_d1 := by
  show StableHlo.after hostOps0 (W0 m c) (Proc.devRef .tc main_v4) = _
  after_results
  rfl

/-- The fused bias row: the three layers' biases end to end, as one row. -/
theorem entry_b (c : Dev nD) : U1 m c main_v6 = shapeCast S1x384 (concatenate S384 0
    [⟨S128, m ((c : Thread nD τ).loc main_arg3)⟩, ⟨S128, m ((c : Thread nD τ).loc main_arg5)⟩, ⟨S128, m ((c : Thread nD τ).loc main_arg7)⟩]
    concatenates_S128_S128_S128_S384_d0) shapeCasts_S384_S1x384 := by
  show StableHlo.after hostOps0 (W0 m c) (Proc.devRef .tc main_v6) = _
  after_results
  rfl

/-- No stretch before the edge kernel and no region writes the edge list. -/
theorem W2_edges (c : Dev nD) : W2 m c (Proc.devRef .tc main_arg1) = m ((c : Thread nD τ).loc main_arg1) :=
  (W2_of_ne m c main_arg1 (by decide)).trans
    ((StableHlo.after_of_writes_sub hostOps0 _ hostOps0_writes (r := main_arg1) (by decide)).trans rfl)

/-- The fused projection the kernel leaves: the specification's, of the padded matrix, the fused weight and the fused bias. -/
theorem W2_qkv (c : Dev nD) : W2 m c (Proc.devRef .tc main_v7) = qkvArr
    (concatenate S50176x128 0
      [⟨S50001x128, Cert.ReferenceIdeal.Read.val_main_v1 (F := Ideal) (m ((c : Thread nD τ).loc main_arg0))⟩,
       ⟨S175x128, broadcastInDim S175x128 ![] bcast_S_S175x128 (constant (F := Ideal) S_ .f32 0x00000000#32)⟩]
      concatenates_S50001x128_S175x128_S50176x128_d0)
    (concatenate S128x384 1
      [⟨S128x128, m ((c : Thread nD τ).loc main_arg2)⟩, ⟨S128x128, m ((c : Thread nD τ).loc main_arg4)⟩, ⟨S128x128, m ((c : Thread nD τ).loc main_arg6)⟩]
      concatenates_S128x128_S128x128_S128x128_S128x384_d1)
    (shapeCast S1x384 (concatenate S384 0
      [⟨S128, m ((c : Thread nD τ).loc main_arg3)⟩, ⟨S128, m ((c : Thread nD τ).loc main_arg5)⟩, ⟨S128, m ((c : Thread nD τ).loc main_arg7)⟩]
      concatenates_S128_S128_S128_S384_d0) shapeCasts_S384_S1x384) := by
  refine (W2_arr m c 3).trans ((final0_3 (U1 m) c).trans ?_)
  rw [entry_x, entry_w, entry_b]

/-! ## What the second host stretch hands the edge kernel: the reference's gathered keys, queries and values -/

/-- The gathered keys: the source node's key heads, on both sides a gather of the same array at the same indices. -/
theorem ksrc_eq (c : Dev nD) : U3 m c main_v35 = Cert.ReferenceIdeal.Read.val_main_v37 (F := Ideal) (m ((c : Thread nD τ).loc main_arg0)) (m ((c : Thread nD τ).loc main_arg1)) (m ((c : Thread nD τ).loc main_arg4)) (m ((c : Thread nD τ).loc main_arg5)) := by
  have hR : Cert.ReferenceIdeal.Read.val_main_v37 (F := Ideal) (m ((c : Thread nD τ).loc main_arg0)) (m ((c : Thread nD τ).loc main_arg1)) (m ((c : Thread nD τ).loc main_arg4)) (m ((c : Thread nD τ).loc main_arg5))
      = Host.gather Cert.ReferenceIdeal.gather_S50001x8x16_S850000x1_S850000x8x16_12_0_n_n_0_1_1816
          (headsArr (Cert.ReferenceIdeal.Read.val_main_v1 (F := Ideal) (m ((c : Thread nD τ).loc main_arg0))) (m ((c : Thread nD τ).loc main_arg4)) (m ((c : Thread nD τ).loc main_arg5))) (Cert.ReferenceIdeal.Read.val_main_v36 (F := Ideal) (m ((c : Thread nD τ).loc main_arg1))) := by
    unfold Cert.ReferenceIdeal.Read.val_main_v37
    rw [Cert.Attn.Ref.heads_k]
  rw [hR, ← Cert.Attn.Ker.heads_k_of_qkv (Cert.ReferenceIdeal.Read.val_main_v1 (F := Ideal) (m ((c : Thread nD τ).loc main_arg0)))
    (broadcastInDim S175x128 ![] bcast_S_S175x128 (constant (F := Ideal) S_ .f32 0x00000000#32))
    (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7)), ← W2_qkv m c, ← W2_edges m c]
  show StableHlo.after hostOps1 (W2 m c) (Proc.devRef .tc main_v35) = _
  generalize W2 m c = X
  after_results_simp
  rfl

/-- The gathered queries, at the destination nodes. -/
theorem qdst_eq (c : Dev nD) : U3 m c main_v42 = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  have hR : Cert.ReferenceIdeal.Read.val_main_v44 (F := Ideal) (m ((c : Thread nD τ).loc main_arg0)) (m ((c : Thread nD τ).loc main_arg1)) (m ((c : Thread nD τ).loc main_arg2)) (m ((c : Thread nD τ).loc main_arg3))
      = Host.gather Cert.ReferenceIdeal.gather_S50001x8x16_S850000x1_S850000x8x16_12_0_n_n_0_1_1816
          (headsArr (Cert.ReferenceIdeal.Read.val_main_v1 (F := Ideal) (m ((c : Thread nD τ).loc main_arg0))) (m ((c : Thread nD τ).loc main_arg2)) (m ((c : Thread nD τ).loc main_arg3))) (Cert.ReferenceIdeal.Read.val_main_v43 (F := Ideal) (m ((c : Thread nD τ).loc main_arg1))) := by
    unfold Cert.ReferenceIdeal.Read.val_main_v44
    rw [Cert.Attn.Ref.heads_q]
  rw [hR, ← Cert.Attn.Ker.heads_q_of_qkv (Cert.ReferenceIdeal.Read.val_main_v1 (F := Ideal) (m ((c : Thread nD τ).loc main_arg0)))
    (broadcastInDim S175x128 ![] bcast_S_S175x128 (constant (F := Ideal) S_ .f32 0x00000000#32))
    (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7)), ← W2_qkv m c, ← W2_edges m c]
  show StableHlo.after hostOps1 (W2 m c) (Proc.devRef .tc main_v42) = _
  generalize W2 m c = X
  after_results_simp
  rfl

/-- The gathered values, at the source nodes. -/
theorem vsrc_eq (c : Dev nD) : U3 m c main_v49 = Cert.ReferenceIdeal.Read.val_main_v58 (F := Ideal) (m ((c : Thread nD τ).loc main_arg0)) (m ((c : Thread nD τ).loc main_arg1)) (m ((c : Thread nD τ).loc main_arg6)) (m ((c : Thread nD τ).loc main_arg7)) := by
  have hR : Cert.ReferenceIdeal.Read.val_main_v58 (F := Ideal) (m ((c : Thread nD τ).loc main_arg0)) (m ((c : Thread nD τ).loc main_arg1)) (m ((c : Thread nD τ).loc main_arg6)) (m ((c : Thread nD τ).loc main_arg7))
      = Host.gather Cert.ReferenceIdeal.gather_S50001x8x16_S850000x1_S850000x8x16_12_0_n_n_0_1_1816
          (headsArr (Cert.ReferenceIdeal.Read.val_main_v1 (F := Ideal) (m ((c : Thread nD τ).loc main_arg0))) (m ((c : Thread nD τ).loc main_arg6)) (m ((c : Thread nD τ).loc main_arg7))) (Cert.ReferenceIdeal.Read.val_main_v57 (F := Ideal) (m ((c : Thread nD τ).loc main_arg1))) := by
    unfold Cert.ReferenceIdeal.Read.val_main_v58
    rw [Cert.Attn.Ref.heads_v]
  rw [hR, ← Cert.Attn.Ker.heads_v_of_qkv (Cert.ReferenceIdeal.Read.val_main_v1 (F := Ideal) (m ((c : Thread nD τ).loc main_arg0)))
    (broadcastInDim S175x128 ![] bcast_S_S175x128 (constant (F := Ideal) S_ .f32 0x00000000#32))
    (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7)), ← W2_qkv m c, ← W2_edges m c]
  show StableHlo.after hostOps1 (W2 m c) (Proc.devRef .tc main_v49) = _
  generalize W2 m c = X
  after_results_simp
  rfl

/-! ## What the edge kernel hands the last host stretch -/

/-- The destination indices the sums are taken over are the reference's. -/
theorem dst_eq (c : Dev nD) : W4 m c (Proc.devRef .tc main_v28) = Cert.ReferenceIdeal.Read.val_main_v15 (F := Ideal) (m ((c : Thread nD τ).loc main_arg1)) := by
  rw [W4_of_ne m c main_v28 (by decide), ← W2_edges m c]
  show StableHlo.after hostOps1 (W2 m c) (Proc.devRef .tc main_v28) = _
  generalize W2 m c = X
  after_results_simp
  rfl

/-- The messages the edge kernel leaves are the reference's. -/
theorem msg_eq (c : Dev nD) : W4 m c (Proc.devRef .tc main_v50_0)
    = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.Attn.Ref.msg_ref, ← ksrc_eq m c, ← qdst_eq m c, ← vsrc_eq m c]
  exact (W4_arr m c 3).trans (final1_3 (U3 m) c)

/-- The scores the edge kernel leaves are the reference's. -/
theorem score_eq (c : Dev nD) : W4 m c (Proc.devRef .tc main_v50_1)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Cert.Attn.Ref.score_ref, ← ksrc_eq m c, ← qdst_eq m c]
  exact (W4_arr m c 4).trans (final1_4 (U3 m) c)

/-! ## The result -/

/-- THE RESULT: what the program returns is the reference's result term of the same arguments. The per-node sums of
    messages and scores, the quotient and the final reshape and slice are the same operations on both sides, applied to
    equal messages, scores and destination indices. -/
theorem result_eq (c : Dev nD) : W5 m c (Proc.devRef .tc main_v62)
    = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Cert.ReferenceIdeal.Read.val_main_v72 Cert.ReferenceIdeal.Read.val_main_v71 Cert.ReferenceIdeal.Read.val_main_v70 Cert.ReferenceIdeal.Read.val_main_v69 Cert.ReferenceIdeal.Read.val_main_v68
    Cert.ReferenceIdeal.Read.val_main_v66 Cert.ReferenceIdeal.Read.val_main_v65 Cert.ReferenceIdeal.Read.val_main_v63 Cert.ReferenceIdeal.Read.val_main_v62
  rw [← msg_eq m c, ← score_eq m c, ← dst_eq m c]
  show StableHlo.after hostOps2 (W4 m c) (Proc.devRef .tc main_v62) = _
  generalize W4 m c = Y
  after_results_simp
  rfl

end Cert.KernelIdeal.Hand

end
-- ==== Proof.lean ====
/-
  The certificate's five claims for one sparse graph-attention layer.

  Both kernel programs (the printed one at the word level and its idealization) run three stretches of host operations
  around two kernel regions; each terminates with its arguments unchanged (the frames). The idealized kernel program and
  the idealized reference return the same array: the projection kernel computes the three linear layers at once through
  one fused weight, whose columns are the three layers' columns; the edge kernel computes, edge by edge and head by head,
  exp (clip (⟨k, q⟩ · ¼)) and the value times it, where the reference divides by 4 — one function on the extended reals;
  the gathers before the edge kernel and the per-node sums and quotient after it are the same operations on both sides.
  The ideal pass rewrote nothing, so the idealization is the program's own text.
-/
import proofs.«146397_j38843684225059_2_alg».proof.Defs
import proofs.«146397_j38843684225059_2_alg».proof.Proof.KB.Run
import proofs.«146397_j38843684225059_2_alg».proof.Proof.KI.Run
import proofs.«146397_j38843684225059_2_alg».proof.Proof.KI.Bridge
import proofs.«146397_j38843684225059_2_alg».proof.Proof.Gen.ReferenceIdeal.Run
import proofs.«146397_j38843684225059_2_alg».proof.Proof.Gen.ReferenceIdeal.Read
import proofs.«146397_j38843684225059_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel program ends with its result at the last boundary's contents and its arguments as launched;
    the reference ends at its composed term, which is that array once the arguments agree. -/
theorem algebraic : Cert.algebraic_KernelIdeal_ReferenceIdeal := by
  intro m ρ m' ρ' _ hagree
  refine ⟨fun c => Cert.KernelIdeal.Hand.W5 m c (Proc.devRef .tc Cert.KernelIdeal.main_v62), ?_, ?_⟩
  · exact (θ_run Cert.KernelIdeal.defs _ _).mono (fun r h c =>
      ⟨h c _ (Cert.KernelIdeal.Hand.mem_ucH Cert.KernelIdeal.main_v62 (by decide)),
       (h c _ (Cert.KernelIdeal.Hand.mem_ucH Cert.KernelIdeal.main_arg0 (by decide))).trans (Cert.KernelIdeal.Hand.W5_main_arg0 m c),
       (h c _ (Cert.KernelIdeal.Hand.mem_ucH Cert.KernelIdeal.main_arg1 (by decide))).trans (Cert.KernelIdeal.Hand.W5_main_arg1 m c),
       (h c _ (Cert.KernelIdeal.Hand.mem_ucH Cert.KernelIdeal.main_arg2 (by decide))).trans (Cert.KernelIdeal.Hand.W5_main_arg2 m c),
       (h c _ (Cert.KernelIdeal.Hand.mem_ucH Cert.KernelIdeal.main_arg3 (by decide))).trans (Cert.KernelIdeal.Hand.W5_main_arg3 m c),
       (h c _ (Cert.KernelIdeal.Hand.mem_ucH Cert.KernelIdeal.main_arg4 (by decide))).trans (Cert.KernelIdeal.Hand.W5_main_arg4 m c),
       (h c _ (Cert.KernelIdeal.Hand.mem_ucH Cert.KernelIdeal.main_arg5 (by decide))).trans (Cert.KernelIdeal.Hand.W5_main_arg5 m c),
       (h c _ (Cert.KernelIdeal.Hand.mem_ucH Cert.KernelIdeal.main_arg6 (by decide))).trans (Cert.KernelIdeal.Hand.W5_main_arg6 m c),
       (h c _ (Cert.KernelIdeal.Hand.mem_ucH Cert.KernelIdeal.main_arg7 (by decide))).trans (Cert.KernelIdeal.Hand.W5_main_arg7 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
